-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S8192x2 .f32) (main_arg2 : FVec F S8x1024x4096 .f32) (main_arg3 : FVec F S8x4096x1024 .f32) (main_arg4 : FVec F S1024 .f32) (main_arg5 : IVec S8192x2 32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S4x2048x1024 : Shape := ⟨3, ![4, 2048, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S1024 : Shape := ⟨1, ![1024]⟩
abbrev S8192x1024 : Shape := ⟨2, ![8192, 1024]⟩
abbrev S16384 : Shape := ⟨1, ![16384]⟩
abbrev S_ : Shape := ⟨0, ![]⟩
abbrev S16384x1 : Shape := ⟨2, ![16384, 1]⟩
abbrev S8 : Shape := ⟨1, ![8]⟩
abbrev S9x2048x1024 : Shape := ⟨3, ![9, 2048, 1024]⟩
abbrev S16384x1024 : Shape := ⟨2, ![16384, 1024]⟩
abbrev S16384x2 : Shape := ⟨2, ![16384, 2]⟩
abbrev S8x2048x1024 : Shape := ⟨3, ![8, 2048, 1024]⟩
abbrev S1x128x1024 : Shape := ⟨3, ![1, 128, 1024]⟩
abbrev S1x1024x4096 : Shape := ⟨3, ![1, 1024, 4096]⟩
abbrev S1x4096x1024 : Shape := ⟨3, ![1, 4096, 1024]⟩
abbrev S128x1024 : Shape := ⟨2, ![128, 1024]⟩
abbrev S1024x4096 : Shape := ⟨2, ![1024, 4096]⟩
abbrev S4096x1024 : Shape := ⟨2, ![4096, 1024]⟩
abbrev S128x4096 : Shape := ⟨2, ![128, 4096]⟩
abbrev S1x1x1024 : Shape := ⟨3, ![1, 1, 1024]⟩

abbrev nBuf : Space → Nat
  | .hbm => 159
  | .vmem => 8
  | .smem => 0
  | _ => 0

abbrev hbmTy0_0 (i : Nat) : BufTy := match i % 128 with
  | 0 => ⟨S4x2048x1024, .f32⟩
  | 1 => ⟨S8192x2, .f32⟩
  | 2 => ⟨S8x1024x4096, .f32⟩
  | 3 => ⟨S8x4096x1024, .f32⟩
  | 4 => ⟨S1024, .f32⟩
  | 5 => ⟨S8192x2, .i32⟩
  | 6 => ⟨S8192x1024, .f32⟩
  | 7 => ⟨S16384, .i32⟩
  | 8 => ⟨S16384, .f32⟩
  | 9 => ⟨S16384, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384, .i32⟩
  | 21 => ⟨S_, .i32⟩
  | 22 => ⟨S8, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S_, .i32⟩
  | 32 => ⟨S16384, .i32⟩
  | 33 => ⟨S8, .i32⟩
  | 34 => ⟨S_, .i32⟩
  | 35 => ⟨S_, .i32⟩
  | 36 => ⟨S8, .i32⟩
  | 37 => ⟨S8, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S_, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i1⟩
  | 60 => ⟨S16384, .i32⟩
  | 61 => ⟨S16384, .i32⟩
  | 62 => ⟨S_, .i32⟩
  | 63 => ⟨S16384, .i32⟩
  | 64 => ⟨S16384, .i1⟩
  | 65 => ⟨S16384, .i1⟩
  | 66 => ⟨S_, .i32⟩
  | 67 => ⟨S16384, .i32⟩
  | 68 => ⟨S16384, .i32⟩
  | 69 => ⟨S16384, .i32⟩
  | 70 => ⟨S_, .i32⟩
  | 71 => ⟨S_, .i32⟩
  | 72 => ⟨S16384, .i32⟩
  | 73 => ⟨S16384, .i32⟩
  | 74 => ⟨S_, .i32⟩
  | 75 => ⟨S_, .i32⟩
  | 76 => ⟨S16384, .i32⟩
  | 77 => ⟨S16384, .i32⟩
  | 78 => ⟨S_, .f32⟩
  | 79 => ⟨S9x2048x1024, .f32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S16384x1, .i32⟩
  | 88 => ⟨S16384x1024, .f32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x1, .i32⟩
  | 105 => ⟨S16384x2, .i32⟩
  | 106 => ⟨S9x2048x1024, .f32⟩
  | 107 => ⟨S8x2048x1024, .f32⟩
  | 108 => ⟨S8x2048x1024, .bf16⟩
  | 109 => ⟨S8x1024x4096, .bf16⟩
  | 110 => ⟨S8x4096x1024, .bf16⟩
  | 111 => ⟨S8x2048x1024, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S16384x1, .i32⟩
  | _ => ⟨S4x2048x1024, .f32⟩

abbrev hbmTy0_1 (i : Nat) : BufTy := match i % 128 with
  | 0 => ⟨S16384x2, .i32⟩
  | 1 => ⟨S16384x1024, .f32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384, .f32⟩
  | 11 => ⟨S16384, .f32⟩
  | 12 => ⟨S16384, .f32⟩
  | 13 => ⟨S16384x1, .f32⟩
  | 14 => ⟨S16384x1024, .f32⟩
  | 15 => ⟨S16384x1024, .f32⟩
  | 16 => ⟨S_, .f32⟩
  | 17 => ⟨S8192x1024, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S8192x1024, .f32⟩
  | 27 => ⟨S4x2048x1024, .f32⟩
  | 28 => ⟨S1x1x1024, .f32⟩
  | 29 => ⟨S4x2048x1024, .f32⟩
  | 30 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1x128x1024, .f32⟩
  | .local _ .vmem, ⟨7, _⟩ => ⟨S1x128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1_0 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_call1_call0_c : Ref sig .tc := ⟨.hbm, 34, rfl⟩
abbrev main_call1_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v33 : Ref sig .tc := ⟨.hbm, 69, rfl⟩
abbrev main_c_9 : Ref sig .tc := ⟨.hbm, 70, rfl⟩
abbrev main_call3_v0 : Ref sig .tc := ⟨.hbm, 71, rfl⟩
abbrev main_call3_v1 : Ref sig .tc := ⟨.hbm, 72, rfl⟩
abbrev main_v34 : Ref sig .tc := ⟨.hbm, 73, rfl⟩
abbrev main_c_10 : Ref sig .tc := ⟨.hbm, 74, rfl⟩
abbrev main_call4_v0 : Ref sig .tc := ⟨.hbm, 75, rfl⟩
abbrev main_call4_v1 : Ref sig .tc := ⟨.hbm, 76, rfl⟩
abbrev main_v35 : Ref sig .tc := ⟨.hbm, 77, rfl⟩
abbrev main_cst : Ref sig .tc := ⟨.hbm, 78, rfl⟩
abbrev main_v36 : Ref sig .tc := ⟨.hbm, 79, rfl⟩
abbrev main_c_11 : Ref sig .tc := ⟨.hbm, 80, rfl⟩
abbrev main_v37 : Ref sig .tc := ⟨.hbm, 81, rfl⟩
abbrev main_v38 : Ref sig .tc := ⟨.hbm, 82, rfl⟩
abbrev main_c_12 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_13 : Ref sig .tc := ⟨.hbm, 89, rfl⟩
abbrev main_v44 : Ref sig .tc := ⟨.hbm, 90, rfl⟩
abbrev main_v45 : Ref sig .tc := ⟨.hbm, 91, rfl⟩
abbrev main_c_14 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_15 : Ref sig .tc := ⟨.hbm, 96, rfl⟩
abbrev main_v49 : Ref sig .tc := ⟨.hbm, 97, rfl⟩
abbrev main_v50 : Ref sig .tc := ⟨.hbm, 98, rfl⟩
abbrev main_c_16 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c_17 : Ref sig .tc := ⟨.hbm, 112, rfl⟩
abbrev main_v63 : Ref sig .tc := ⟨.hbm, 113, rfl⟩
abbrev main_v64 : Ref sig .tc := ⟨.hbm, 114, rfl⟩
abbrev main_c_18 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_19 : Ref sig .tc := ⟨.hbm, 119, rfl⟩
abbrev main_v68 : Ref sig .tc := ⟨.hbm, 120, rfl⟩
abbrev main_v69 : Ref sig .tc := ⟨.hbm, 121, rfl⟩
abbrev main_c_20 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_c_21 : Ref sig .tc := ⟨.hbm, 130, rfl⟩
abbrev main_v77 : Ref sig .tc := ⟨.hbm, 131, rfl⟩
abbrev main_v78 : Ref sig .tc := ⟨.hbm, 132, rfl⟩
abbrev main_c_22 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_23 : Ref sig .tc := ⟨.hbm, 144, rfl⟩
abbrev main_v89 : Ref sig .tc := ⟨.hbm, 145, rfl⟩
abbrev main_c_24 : Ref sig .tc := ⟨.hbm, 146, rfl⟩
abbrev main_v90 : Ref sig .tc := ⟨.hbm, 147, rfl⟩
abbrev main_v91 : Ref sig .tc := ⟨.hbm, 148, rfl⟩
abbrev main_c_25 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x1024_S8192x1024 : S4x2048x1024.ShapeCasts S8192x1024
  shapeCasts_S8192x2_S16384 : S8192x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S9x2048x1024 : S_.BroadcastsInDim S9x2048x1024 (![] : Fin 0 → Fin S9x2048x1024.rank)
  concatenates_S16384x1_S16384x1_S16384x2_d1 : Shape.Concatenates [S16384x1, S16384x1] S16384x2 1
  slices_S9x2048x1024_S8x2048x1024_0_0_0 : S9x2048x1024.Slices ![0, 0, 0] S8x2048x1024
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S128x1024_S1x128x1024 : S128x1024.ShapeCasts S1x128x1024
  bcast_S16384x1_S16384x1024_0_1 : S16384x1.BroadcastsInDim S16384x1024 (![0, 1] : Fin 2 → Fin S16384x1024.rank)
  bcast_S_S8192x1024 : S_.BroadcastsInDim S8192x1024 (![] : Fin 0 → Fin S8192x1024.rank)
  shapeCasts_S8192x1024_S4x2048x1024 : S8192x1024.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  gather_S16384_S16384x1_S16384_n_0_n_n_0_1_1_wf : GatherDims.WF S16384 S16384x1 S16384 [] [0] [] [0] [] 1 ![1]
  scatter_S8_S16384x1_S16384_n_0_0_1_wf : ScatterDims.WF S8 S16384x1 S16384 [] [0] [0] 1
  gather_S8_S16384x1_S16384_n_0_n_n_0_1_1_wf : GatherDims.WF S8 S16384x1 S16384 [] [0] [] [0] [] 1 ![1]
  gather_S8192x1024_S16384x1_S16384x1024_1_0_n_n_0_1_11024_wf : GatherDims.WF S8192x1024 S16384x1 S16384x1024 [1] [0] [] [0] [] 1 ![1, 1024]
  scatter_S9x2048x1024_S16384x2_S16384x1024_1_01_01_1_wf : ScatterDims.WF S9x2048x1024 S16384x2 S16384x1024 [1] [0, 1] [0, 1] 1
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  gather_S8x2048x1024_S16384x2_S16384x1024_1_01_n_n_01_1_111024_wf : GatherDims.WF S8x2048x1024 S16384x2 S16384x1024 [1] [0, 1] [] [0, 1] [] 1 ![1, 1, 1024]
  scatter_S8192x1024_S16384x1_S16384x1024_1_0_0_1_wf : ScatterDims.WF S8192x1024 S16384x1 S16384x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .bf16 = 32 ∨ (Rect.block (s := S8x2048x1024) S1x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1024.size a ≤ S8x4096x1024.size a
  hwx0_2 : ∀ i : grid0.Coords, EltTy.bits .bf16 = 32 ∨ (Rect.block (s := S8x4096x1024) S1x4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S8x2048x1024.size a
  hwx0_3 : ∀ i : grid0.Coords, EltTy.bits .f32 = 32 ∨ (Rect.block (s := S8x2048x1024) S1x128x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf
def scatter_S9x2048x1024_S16384x2_S16384x1024_1_01_01_1 : ScatterDims S9x2048x1024 S16384x2 S16384x1024 where
  updateWindowDims := [1]
  insertedWindowDims := [0, 1]
  scatterDimsToOperandDims := [0, 1]
  indexVectorDim := 1
  wf := scatter_S9x2048x1024_S16384x2_S16384x1024_1_01_01_1_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def gather_S8x2048x1024_S16384x2_S16384x1024_1_01_n_n_01_1_111024 : GatherDims S8x2048x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S8x2048x1024_S16384x2_S16384x1024_1_01_n_n_01_1_111024_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

abbrev win0_0 : Pipeline.Window sig grid0 :=
  Pipeline.Window.ofSpec (Memref.whole main_v59) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S1x4096x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S1024 : Shape := ⟨1, ![1024]⟩
abbrev S8192x1024 : Shape := ⟨2, ![8192, 1024]⟩
abbrev S16384 : Shape := ⟨1, ![16384]⟩
abbrev S_ : Shape := ⟨0, ![]⟩
abbrev S16384x1 : Shape := ⟨2, ![16384, 1]⟩
abbrev S8 : Shape := ⟨1, ![8]⟩
abbrev S9x2048x1024 : Shape := ⟨3, ![9, 2048, 1024]⟩
abbrev S16384x1024 : Shape := ⟨2, ![16384, 1024]⟩
abbrev S16384x2 : Shape := ⟨2, ![16384, 2]⟩
abbrev S8x2048x1024 : Shape := ⟨3, ![8, 2048, 1024]⟩
abbrev S8x2048x4096 : Shape := ⟨3, ![8, 2048, 4096]⟩
abbrev S1x1x1024 : Shape := ⟨3, ![1, 1, 1024]⟩

abbrev nBuf : Space → Nat
  | .hbm => 174
  | .vmem => 0
  | .smem => 0
  | _ => 0

abbrev hbmTy0_0 (i : Nat) : BufTy := match i % 128 with
  | 0 => ⟨S4x2048x1024, .f32⟩
  | 1 => ⟨S8192x2, .f32⟩
  | 2 => ⟨S8x1024x4096, .f32⟩
  | 3 => ⟨S8x4096x1024, .f32⟩
  | 4 => ⟨S1024, .f32⟩
  | 5 => ⟨S8192x2, .i32⟩
  | 6 => ⟨S8192x1024, .f32⟩
  | 7 => ⟨S16384, .i32⟩
  | 8 => ⟨S16384, .f32⟩
  | 9 => ⟨S16384, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384, .i32⟩
  | 21 => ⟨S_, .i32⟩
  | 22 => ⟨S8, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S_, .i32⟩
  | 32 => ⟨S16384, .i32⟩
  | 33 => ⟨S8, .i32⟩
  | 34 => ⟨S_, .i32⟩
  | 35 => ⟨S_, .i32⟩
  | 36 => ⟨S8, .i32⟩
  | 37 => ⟨S8, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S_, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i1⟩
  | 60 => ⟨S16384, .i32⟩
  | 61 => ⟨S16384, .i32⟩
  | 62 => ⟨S_, .i32⟩
  | 63 => ⟨S16384, .i32⟩
  | 64 => ⟨S16384, .i1⟩
  | 65 => ⟨S16384, .i1⟩
  | 66 => ⟨S_, .i32⟩
  | 67 => ⟨S16384, .i32⟩
  | 68 => ⟨S16384, .i32⟩
  | 69 => ⟨S16384, .i32⟩
  | 70 => ⟨S_, .i32⟩
  | 71 => ⟨S_, .i32⟩
  | 72 => ⟨S16384, .i32⟩
  | 73 => ⟨S16384, .i32⟩
  | 74 => ⟨S_, .i32⟩
  | 75 => ⟨S_, .i32⟩
  | 76 => ⟨S16384, .i32⟩
  | 77 => ⟨S16384, .i32⟩
  | 78 => ⟨S_, .f32⟩
  | 79 => ⟨S9x2048x1024, .f32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S16384x1, .i32⟩
  | 88 => ⟨S16384x1024, .f32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x1, .i32⟩
  | 105 => ⟨S16384x2, .i32⟩
  | 106 => ⟨S9x2048x1024, .f32⟩
  | 107 => ⟨S8x2048x1024, .f32⟩
  | 108 => ⟨S8x2048x4096, .f32⟩
  | 109 => ⟨S8x2048x4096, .f32⟩
  | 110 => ⟨S8x2048x4096, .f32⟩
  | 111 => ⟨S_, .f32⟩
  | 112 => ⟨S8x2048x4096, .f32⟩
  | 113 => ⟨S8x2048x4096, .f32⟩
  | 114 => ⟨S8x2048x4096, .f32⟩
  | 115 => ⟨S_, .f32⟩
  | 116 => ⟨S8x2048x4096, .f32⟩
  | 117 => ⟨S8x2048x4096, .f32⟩
  | 118 => ⟨S8x2048x4096, .f32⟩
  | 119 => ⟨S_, .f32⟩
  | 120 => ⟨S8x2048x4096, .f32⟩
  | 121 => ⟨S8x2048x4096, .f32⟩
  | 122 => ⟨S_, .f32⟩
  | 123 => ⟨S8x2048x4096, .f32⟩
  | 124 => ⟨S8x2048x4096, .f32⟩
  | 125 => ⟨S8x2048x4096, .f32⟩
  | 126 => ⟨S8x2048x1024, .f32⟩
  | 127 => ⟨S_, .i32⟩
  | _ => ⟨S4x2048x1024, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S16384x1, .i32⟩
  | 15 => ⟨S16384x2, .i32⟩
  | 16 => ⟨S16384x1024, .f32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S16384, .f32⟩
  | 26 => ⟨S16384, .f32⟩
  | 27 => ⟨S16384, .f32⟩
  | 28 => ⟨S16384x1, .f32⟩
  | 29 => ⟨S16384x1024, .f32⟩
  | 30 => ⟨S16384x1024, .f32⟩
  | 31 => ⟨S_, .f32⟩
  | 32 => ⟨S8192x1024, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S8192x1024, .f32⟩
  | 42 => ⟨S4x2048x1024, .f32⟩
  | 43 => ⟨S1x1x1024, .f32⟩
  | 44 => ⟨S4x2048x1024, .f32⟩
  | 45 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1_0 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_call1_call0_c : Ref sig .tc := ⟨.hbm, 34, rfl⟩
abbrev main_call1_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v33 : Ref sig .tc := ⟨.hbm, 69, rfl⟩
abbrev main_c_9 : Ref sig .tc := ⟨.hbm, 70, rfl⟩
abbrev main_call3_v0 : Ref sig .tc := ⟨.hbm, 71, rfl⟩
abbrev main_call3_v1 : Ref sig .tc := ⟨.hbm, 72, rfl⟩
abbrev main_v34 : Ref sig .tc := ⟨.hbm, 73, rfl⟩
abbrev main_c_10 : Ref sig .tc := ⟨.hbm, 74, rfl⟩
abbrev main_call4_v0 : Ref sig .tc := ⟨.hbm, 75, rfl⟩
abbrev main_call4_v1 : Ref sig .tc := ⟨.hbm, 76, rfl⟩
abbrev main_v35 : Ref sig .tc := ⟨.hbm, 77, rfl⟩
abbrev main_cst : Ref sig .tc := ⟨.hbm, 78, rfl⟩
abbrev main_v36 : Ref sig .tc := ⟨.hbm, 79, rfl⟩
abbrev main_c_11 : Ref sig .tc := ⟨.hbm, 80, rfl⟩
abbrev main_v37 : Ref sig .tc := ⟨.hbm, 81, rfl⟩
abbrev main_v38 : Ref sig .tc := ⟨.hbm, 82, rfl⟩
abbrev main_c_12 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_13 : Ref sig .tc := ⟨.hbm, 89, rfl⟩
abbrev main_v44 : Ref sig .tc := ⟨.hbm, 90, rfl⟩
abbrev main_v45 : Ref sig .tc := ⟨.hbm, 91, rfl⟩
abbrev main_c_14 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_15 : Ref sig .tc := ⟨.hbm, 96, rfl⟩
abbrev main_v49 : Ref sig .tc := ⟨.hbm, 97, rfl⟩
abbrev main_v50 : Ref sig .tc := ⟨.hbm, 98, rfl⟩
abbrev main_c_16 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_17 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_18 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_19 : Ref sig .tc := ⟨.hbm, 119, rfl⟩
abbrev main_v68 : Ref sig .tc := ⟨.hbm, 120, rfl⟩
abbrev main_v69 : Ref sig .tc := ⟨.hbm, 121, rfl⟩
abbrev main_cst_20 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_21 : Ref sig .tc := ⟨.hbm, 127, rfl⟩
abbrev main_v74 : Ref sig .tc := ⟨.hbm, 128, rfl⟩
abbrev main_v75 : Ref sig .tc := ⟨.hbm, 129, rfl⟩
abbrev main_c_22 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_23 : Ref sig .tc := ⟨.hbm, 134, rfl⟩
abbrev main_v79 : Ref sig .tc := ⟨.hbm, 135, rfl⟩
abbrev main_v80 : Ref sig .tc := ⟨.hbm, 136, rfl⟩
abbrev main_c_24 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_c_25 : Ref sig .tc := ⟨.hbm, 145, rfl⟩
abbrev main_v88 : Ref sig .tc := ⟨.hbm, 146, rfl⟩
abbrev main_v89 : Ref sig .tc := ⟨.hbm, 147, rfl⟩
abbrev main_c_26 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_27 : Ref sig .tc := ⟨.hbm, 159, rfl⟩
abbrev main_v100 : Ref sig .tc := ⟨.hbm, 160, rfl⟩
abbrev main_c_28 : Ref sig .tc := ⟨.hbm, 161, rfl⟩
abbrev main_v101 : Ref sig .tc := ⟨.hbm, 162, rfl⟩
abbrev main_v102 : Ref sig .tc := ⟨.hbm, 163, rfl⟩
abbrev main_c_29 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S8192x2_S16384 : S8192x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S9x2048x1024 : S_.BroadcastsInDim S9x2048x1024 (![] : Fin 0 → Fin S9x2048x1024.rank)
  concatenates_S16384x1_S16384x1_S16384x2_d1 : Shape.Concatenates [S16384x1, S16384x1] S16384x2 1
  slices_S9x2048x1024_S8x2048x1024_0_0_0 : S9x2048x1024.Slices ![0, 0, 0] S8x2048x1024
  bcast_S_S8x2048x4096 : S_.BroadcastsInDim S8x2048x4096 (![] : Fin 0 → Fin S8x2048x4096.rank)
  bcast_S16384x1_S16384x1024_0_1 : S16384x1.BroadcastsInDim S16384x1024 (![0, 1] : Fin 2 → Fin S16384x1024.rank)
  bcast_S_S8192x1024 : S_.BroadcastsInDim S8192x1024 (![] : Fin 0 → Fin S8192x1024.rank)
  shapeCasts_S8192x1024_S4x2048x1024 : S8192x1024.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  gather_S16384_S16384x1_S16384_n_0_n_n_0_1_1_wf : GatherDims.WF S16384 S16384x1 S16384 [] [0] [] [0] [] 1 ![1]
  scatter_S8_S16384x1_S16384_n_0_0_1_wf : ScatterDims.WF S8 S16384x1 S16384 [] [0] [0] 1
  gather_S8_S16384x1_S16384_n_0_n_n_0_1_1_wf : GatherDims.WF S8 S16384x1 S16384 [] [0] [] [0] [] 1 ![1]
  gather_S8192x1024_S16384x1_S16384x1024_1_0_n_n_0_1_11024_wf : GatherDims.WF S8192x1024 S16384x1 S16384x1024 [1] [0] [] [0] [] 1 ![1, 1024]
  scatter_S9x2048x1024_S16384x2_S16384x1024_1_01_01_1_wf : ScatterDims.WF S9x2048x1024 S16384x2 S16384x1024 [1] [0, 1] [0, 1] 1
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]
  gather_S8x2048x1024_S16384x2_S16384x1024_1_01_n_n_01_1_111024_wf : GatherDims.WF S8x2048x1024 S16384x2 S16384x1024 [1] [0, 1] [] [0, 1] [] 1 ![1, 1, 1024]
  scatter_S8192x1024_S16384x1_S16384x1024_1_0_0_1_wf : ScatterDims.WF S8192x1024 S16384x1 S16384x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf
def scatter_S9x2048x1024_S16384x2_S16384x1024_1_01_01_1 : ScatterDims S9x2048x1024 S16384x2 S16384x1024 where
  updateWindowDims := [1]
  insertedWindowDims := [0, 1]
  scatterDimsToOperandDims := [0, 1]
  indexVectorDim := 1
  wf := scatter_S9x2048x1024_S16384x2_S16384x1024_1_01_01_1_wf
def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf
def gather_S8x2048x1024_S16384x2_S16384x1024_1_01_n_n_01_1_111024 : GatherDims S8x2048x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S8x2048x1024_S16384x2_S16384x1024_1_01_n_n_01_1_111024_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

class Facts : Prop extends Facts₀ where

variable [Facts]
-- ==== Proof.RefOps.lean ====
import proofs.«173105_j58944131170535_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Window 0 of @main, item 0: 3 operations in order. -/
abbrev w0_0 : List (HloOp τ sig (Elt F)) :=
  [ StableHlo.reshape main_arg0 main_v0 rfl shapeCasts_S4x2048x1024_S8192x1024,
    StableHlo.reshape main_arg5 main_v1 rfl shapeCasts_S8192x2_S16384,
    StableHlo.reshape main_arg1 main_v2 rfl shapeCasts_S8192x2_S16384 ]
theorem w0_0_sub : (w0_0 : List (HloOp τ sig (Elt F))).Forall fun op => op.bufs ⊆ StableHlo.tcRefs τ sig :=
  ⟨StableHlo.reshape_bufs_sub .., StableHlo.reshape_bufs_sub .., StableHlo.reshape_bufs_sub ..⟩

/-- Window 0 of @main, item 1: 3 operations in order. -/
abbrev w0_1 : List (HloOp τ sig (Elt F)) :=
  [ StableHlo.TRef.nullary (.of main_call0_v0 : StableHlo.TRef sig ⟨S16384, .i32⟩) (iotaInDim S16384 32 0),
    StableHlo.TRef.binary (.of main_v1 : StableHlo.TRef sig ⟨S16384, .i32⟩) (.of main_call0_v0 : StableHlo.TRef sig ⟨S16384, .i32⟩) (.of main_call0_v1_0 : StableHlo.TRef sig ⟨S16384, .i32⟩) (fun x y => (Host.sort2 S16384 0 comparator_i32_i32_d0 x y).1),
    StableHlo.TRef.binary (.of main_v1 : StableHlo.TRef sig ⟨S16384, .i32⟩) (.of main_call0_v0 : StableHlo.TRef sig ⟨S16384, .i32⟩) (.of main_v3 : StableHlo.TRef sig ⟨S16384, .i32⟩) (fun x y => (Host.sort2 S16384 0 comparator_i32_i32_d0 x y).2) ]
theorem w0_1_sub : (w0_1 : List (HloOp τ sig (Elt F))).Forall fun op => op.bufs ⊆ StableHlo.tcRefs τ sig :=
  ⟨StableHlo.nullary_bufs_sub .., StableHlo.binary_bufs_sub .., StableHlo.binary_bufs_sub ..⟩

/-- Window 0 of @main, item 2: 22 operations in order. -/
abbrev w0_2 : List (HloOp τ sig (Elt F)) :=
  [ StableHlo.nullary main_c (constantI S_ 32 0#32),
    StableHlo.unary main_c main_v4 (broadcastInDim S16384 ![] bcast_S_S16384 : (⟨S_, .i32⟩ : BufTy).Contents (Elt F) → (⟨S16384, .i32⟩ : BufTy).Contents (Elt F)),
    StableHlo.binary main_v3 main_v4 main_v5 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 16384#32),
    StableHlo.unary main_c_0 main_v6 (broadcastInDim S16384 ![] bcast_S_S16384 : (⟨S_, .i32⟩ : BufTy).Contents (Elt F) → (⟨S16384, .i32⟩ : BufTy).Contents (Elt F)),
    StableHlo.binary main_v3 main_v6 main_v7 (addi : (⟨S16384, .i32⟩ : BufTy).Contents (Elt F) → (⟨S16384, .i32⟩ : BufTy).Contents (Elt F) → (⟨S16384, .i32⟩ : BufTy).Contents (Elt F)),
    StableHlo.ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v8 main_v9 (broadcastInDim S16384x1 ![0] bcast_S16384_S16384x1_0 : (⟨S16384, .i32⟩ : BufTy).Contents (Elt F) → (⟨S16384x1, .i32⟩ : BufTy).Contents (Elt F)),
    StableHlo.binary main_v1 main_v9 main_v10 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_1 (constantI S_ 32 0#32),
    StableHlo.unary main_c_1 main_v11 (broadcastInDim S8 ![] bcast_S_S8 : (⟨S_, .i32⟩ : BufTy).Contents (Elt F) → (⟨S8, .i32⟩ : BufTy).Contents (Elt F)),
    StableHlo.nullary main_c_2 (constantI S_ 32 0#32),
    StableHlo.unary main_c_2 main_v12 (broadcastInDim S16384 ![] bcast_S_S16384 : (⟨S_, .i32⟩ : BufTy).Contents (Elt F) → (⟨S16384, .i32⟩ : BufTy).Contents (Elt F)),
    StableHlo.binary main_v1 main_v12 main_v13 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 8#32),
    StableHlo.unary main_c_3 main_v14 (broadcastInDim S16384 ![] bcast_S_S16384 : (⟨S_, .i32⟩ : BufTy).Contents (Elt F) → (⟨S16384, .i32⟩ : BufTy).Contents (Elt F)),
    StableHlo.binary main_v1 main_v14 main_v15 (addi : (⟨S16384, .i32⟩ : BufTy).Contents (Elt F) → (⟨S16384, .i32⟩ : BufTy).Contents (Elt F) → (⟨S16384, .i32⟩ : BufTy).Contents (Elt F)),
    StableHlo.ternary main_v13 main_v15 main_v1 main_v16 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v16 main_v17 (broadcastInDim S16384x1 ![0] bcast_S16384_S16384x1_0 : (⟨S16384, .i32⟩ : BufTy).Contents (Elt F) → (⟨S16384x1, .i32⟩ : BufTy).Contents (Elt F)),
    StableHlo.nullary main_c_4 (constantI S_ 32 1#32),
    StableHlo.unary main_c_4 main_v18 (broadcastInDim S16384 ![] bcast_S_S16384 : (⟨S_, .i32⟩ : BufTy).Contents (Elt F) → (⟨S16384, .i32⟩ : BufTy).Contents (Elt F)),
    StableHlo.ternary main_v11 main_v17 main_v18 main_v19 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)) ]
theorem w0_2_sub : (w0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩

/-- Window 0 of @main, item 3: 3 operations in order. -/
abbrev w0_3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v19 : StableHlo.TRef sig ⟨S8, .i32⟩) (.of main_call1_call0_v0 : StableHlo.TRef sig ⟨S_, .i32⟩) (.of main_v20 : StableHlo.TRef sig ⟨S8, .i32⟩) (fun x v => Host.reduceWindow IntOp.addi ![8] ![1] ![7] ![0] x v reduceWindows_S8_S8_w8s1p7_0 h_S_) ]
theorem w0_3_sub : (w0_3 : List (HloOp τ sig (Elt F))).Forall fun op => op.bufs ⊆ StableHlo.tcRefs τ sig :=
  ⟨StableHlo.nullary_bufs_sub .., StableHlo.unary_bufs_sub .., StableHlo.binary_bufs_sub ..⟩

/-- Window 0 of @main, item 4: 16 operations in order. -/
abbrev w0_4 : List (HloOp τ sig (Elt F)) :=
  [ StableHlo.binary main_v20 main_v19 main_v21 (subi : (⟨S8, .i32⟩ : BufTy).Contents (Elt F) → (⟨S8, .i32⟩ : BufTy).Contents (Elt F) → (⟨S8, .i32⟩ : BufTy).Contents (Elt F)),
    StableHlo.nullary main_v22 (iotaInDim S16384 32 0),
    StableHlo.nullary main_c_5 (constantI S_ 32 0#32),
    StableHlo.unary main_c_5 main_v23 (broadcastInDim S16384 ![] bcast_S_S16384 : (⟨S_, .i32⟩ : BufTy).Contents (Elt F) → (⟨S16384, .i32⟩ : BufTy).Contents (Elt F)),
    StableHlo.binary main_v10 main_v23 main_v24 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 8#32),
    StableHlo.unary main_c_6 main_v25 (broadcastInDim S16384 ![] bcast_S_S16384 : (⟨S_, .i32⟩ : BufTy).Contents (Elt F) → (⟨S16384, .i32⟩ : BufTy).Contents (Elt F)),
    StableHlo.binary main_v10 main_v25 main_v26 (addi : (⟨S16384, .i32⟩ : BufTy).Contents (Elt F) → (⟨S16384, .i32⟩ : BufTy).Contents (Elt F) → (⟨S16384, .i32⟩ : BufTy).Contents (Elt F)),
    StableHlo.ternary main_v24 main_v26 main_v10 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v27 main_v28 (broadcastInDim S16384x1 ![0] bcast_S16384_S16384x1_0 : (⟨S16384, .i32⟩ : BufTy).Contents (Elt F) → (⟨S16384x1, .i32⟩ : BufTy).Contents (Elt F)),
    StableHlo.binary main_v21 main_v28 main_v29 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F)),
    StableHlo.binary main_v22 main_v29 main_v30 (subi : (⟨S16384, .i32⟩ : BufTy).Contents (Elt F) → (⟨S16384, .i32⟩ : BufTy).Contents (Elt F) → (⟨S16384, .i32⟩ : BufTy).Contents (Elt F)),
    StableHlo.nullary main_c_7 (constantI S_ 32 2048#32),
    StableHlo.unary main_c_7 main_v31 (broadcastInDim S16384 ![] bcast_S_S16384 : (⟨S_, .i32⟩ : BufTy).Contents (Elt F) → (⟨S16384, .i32⟩ : BufTy).Contents (Elt F)),
    StableHlo.binary main_v30 main_v31 main_v32 (cmpi .slt : (⟨S16384, .i32⟩ : BufTy).Contents (Elt F) → (⟨S16384, .i32⟩ : BufTy).Contents (Elt F) → (⟨S16384, .i1⟩ : BufTy).Contents (Elt F)),
    StableHlo.nullary main_c_8 (constantI S_ 32 2#32) ]
theorem w0_4_sub : (w0_4 : List (HloOp τ sig (Elt F))).Forall fun op => op.bufs ⊆ StableHlo.tcRefs τ sig :=
  ⟨StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩

/-- Window 0 of @main, item 5: 17 operations in order. -/
abbrev w0_5 : List (HloOp τ sig (Elt F)) :=
  [ StableHlo.TRef.unary (.of main_c_8 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384, .i32⟩) (broadcastInDim S16384 ![] bcast_S_S16384),
    StableHlo.TRef.binary (.of main_v3 : StableHlo.TRef sig ⟨S16384, .i32⟩) (.of main_call2_v1 : StableHlo.TRef sig ⟨S16384, .i32⟩) (.of main_call2_v2 : StableHlo.TRef sig ⟨S16384, .i32⟩) Host.divsi,
    StableHlo.TRef.unary (.of main_v3 : StableHlo.TRef sig ⟨S16384, .i32⟩) (.of main_call2_v3 : StableHlo.TRef sig ⟨S16384, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S16384, .i32⟩) (broadcastInDim S16384 ![] bcast_S_S16384),
    StableHlo.TRef.binary (.of main_call2_v3 : StableHlo.TRef sig ⟨S16384, .i32⟩) (.of main_call2_v5 : StableHlo.TRef sig ⟨S16384, .i32⟩) (.of main_call2_v6 : StableHlo.TRef sig ⟨S16384, .i1⟩) (cmpi .ne),
    StableHlo.TRef.unary (.of main_call2_v0 : StableHlo.TRef sig ⟨S_, .i32⟩) (.of main_call2_v7 : StableHlo.TRef sig ⟨S16384, .i32⟩) (broadcastInDim S16384 ![] bcast_S_S16384),
    StableHlo.TRef.binary (.of main_v3 : StableHlo.TRef sig ⟨S16384, .i32⟩) (.of main_call2_v7 : StableHlo.TRef sig ⟨S16384, .i32⟩) (.of main_call2_v8 : StableHlo.TRef sig ⟨S16384, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S16384, .i32⟩) (broadcastInDim S16384 ![] bcast_S_S16384),
    StableHlo.TRef.binary (.of main_call2_v8 : StableHlo.TRef sig ⟨S16384, .i32⟩) (.of main_call2_v9 : StableHlo.TRef sig ⟨S16384, .i32⟩) (.of main_call2_v10 : StableHlo.TRef sig ⟨S16384, .i1⟩) (cmpi .ne),
    StableHlo.TRef.binary (.of main_call2_v6 : StableHlo.TRef sig ⟨S16384, .i1⟩) (.of main_call2_v10 : StableHlo.TRef sig ⟨S16384, .i1⟩) (.of main_call2_v11 : StableHlo.TRef sig ⟨S16384, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S16384, .i32⟩) (broadcastInDim S16384 ![] bcast_S_S16384),
    StableHlo.TRef.binary (.of main_call2_v2 : StableHlo.TRef sig ⟨S16384, .i32⟩) (.of main_call2_v12 : StableHlo.TRef sig ⟨S16384, .i32⟩) (.of main_call2_v13 : StableHlo.TRef sig ⟨S16384, .i32⟩) subi,
    StableHlo.TRef.ternary (.of main_call2_v11 : StableHlo.TRef sig ⟨S16384, .i1⟩) (.of main_call2_v13 : StableHlo.TRef sig ⟨S16384, .i32⟩) (.of main_call2_v2 : StableHlo.TRef sig ⟨S16384, .i32⟩) (.of main_v33 : StableHlo.TRef sig ⟨S16384, .i32⟩) select ]
theorem w0_5_sub : (w0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- Window 0 of @main, item 6: 1 operations in order. -/
abbrev w0_6 : List (HloOp τ sig (Elt F)) :=
  [ StableHlo.nullary main_c_9 (constantI S_ 32 8#32) ]
theorem w0_6_sub : (w0_6 : List (HloOp τ sig (Elt F))).Forall fun op => op.bufs ⊆ StableHlo.tcRefs τ sig :=
  StableHlo.nullary_bufs_sub ..

/-- Window 0 of @main, item 7: 3 operations in order. -/
abbrev w0_7 : List (HloOp τ sig (Elt F)) :=
  [ StableHlo.TRef.unary (.of main_c_9 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384, .i32⟩) (broadcastInDim S16384 ![] bcast_S_S16384),
    StableHlo.TRef.ternary (.of main_v32 : StableHlo.TRef sig ⟨S16384, .i1⟩) (.of main_v10 : StableHlo.TRef sig ⟨S16384, .i32⟩) (.of main_call3_v1 : StableHlo.TRef sig ⟨S16384, .i32⟩) (.of main_v34 : StableHlo.TRef sig ⟨S16384, .i32⟩) select ]
theorem w0_7_sub : (w0_7 : List (HloOp τ sig (Elt F))).Forall fun op => op.bufs ⊆ StableHlo.tcRefs τ sig :=
  ⟨StableHlo.unary_bufs_sub .., StableHlo.unary_bufs_sub .., StableHlo.ternary_bufs_sub ..⟩

/-- Window 0 of @main, item 8: 1 operations in order. -/
abbrev w0_8 : List (HloOp τ sig (Elt F)) :=
  [ StableHlo.nullary main_c_10 (constantI S_ 32 0#32) ]
theorem w0_8_sub : (w0_8 : List (HloOp τ sig (Elt F))).Forall fun op => op.bufs ⊆ StableHlo.tcRefs τ sig :=
  StableHlo.nullary_bufs_sub ..

/-- Window 0 of @main, item 9: 3 operations in order. -/
abbrev w0_9 : List (HloOp τ sig (Elt F)) :=
  [ StableHlo.TRef.unary (.of main_c_10 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S16384, .i32⟩) (broadcastInDim S16384 ![] bcast_S_S16384),
    StableHlo.TRef.ternary (.of main_v32 : StableHlo.TRef sig ⟨S16384, .i1⟩) (.of main_v30 : StableHlo.TRef sig ⟨S16384, .i32⟩) (.of main_call4_v1 : StableHlo.TRef sig ⟨S16384, .i32⟩) (.of main_v35 : StableHlo.TRef sig ⟨S16384, .i32⟩) select ]
theorem w0_9_sub : (w0_9 : List (HloOp τ sig (Elt F))).Forall fun op => op.bufs ⊆ StableHlo.tcRefs τ sig :=
  ⟨StableHlo.unary_bufs_sub .., StableHlo.unary_bufs_sub .., StableHlo.ternary_bufs_sub ..⟩

/-- Window 0 of @main, item 10: 12 operations in order. -/
abbrev w0_10 : List (HloOp τ sig (Elt F)) :=
  [ StableHlo.nullary main_cst (constant S_ .f32 0x00000000#32),
    StableHlo.unary main_cst main_v36 (broadcastInDim S9x2048x1024 ![] bcast_S_S9x2048x1024 : (⟨S_, .f32⟩ : BufTy).Contents (Elt F) → (⟨S9x2048x1024, .f32⟩ : BufTy).Contents (Elt F)),
    StableHlo.nullary main_c_11 (constantI S_ 32 0#32),
    StableHlo.unary main_c_11 main_v37 (broadcastInDim S16384 ![] bcast_S_S16384 : (⟨S_, .i32⟩ : BufTy).Contents (Elt F) → (⟨S16384, .i32⟩ : BufTy).Contents (Elt F)),
    StableHlo.binary main_v33 main_v37 main_v38 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 8192#32),
    StableHlo.unary main_c_12 main_v39 (broadcastInDim S16384 ![] bcast_S_S16384 : (⟨S_, .i32⟩ : BufTy).Contents (Elt F) → (⟨S16384, .i32⟩ : BufTy).Contents (Elt F)),
    StableHlo.binary main_v33 main_v39 main_v40 (addi : (⟨S16384, .i32⟩ : BufTy).Contents (Elt F) → (⟨S16384, .i32⟩ : BufTy).Contents (Elt F) → (⟨S16384, .i32⟩ : BufTy).Contents (Elt F)),
    StableHlo.ternary main_v38 main_v40 main_v33 main_v41 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v41 main_v42 (broadcastInDim S16384x1 ![0] bcast_S16384_S16384x1_0 : (⟨S16384, .i32⟩ : BufTy).Contents (Elt F) → (⟨S16384x1, .i32⟩ : BufTy).Contents (Elt F)),
    StableHlo.binary main_v0 main_v42 main_v43 ((fun x i => Host.gather gather_S8192x1024_S16384x1_S16384x1024_1_0_n_n_0_1_11024 x i) : (⟨S8192x1024, .f32⟩ : BufTy).Contents (Elt F) → (⟨S16384x1, .i32⟩ : BufTy).Contents (Elt F) → (⟨S16384x1024, .f32⟩ : BufTy).Contents (Elt F)),
    StableHlo.nullary main_c_13 (constantI S_ 32 0#32) ]
theorem w0_10_sub : (w0_10 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩

/-- Window 1 of @main, item 0: 60 operations in order. -/
abbrev w1_0 : List (HloOp τ sig (Elt F)) :=
  [ StableHlo.unary main_c_13 main_v44 (broadcastInDim S16384 ![] bcast_S_S16384 : (⟨S_, .i32⟩ : BufTy).Contents (Elt F) → (⟨S16384, .i32⟩ : BufTy).Contents (Elt F)),
    StableHlo.binary main_v34 main_v44 main_v45 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 9#32),
    StableHlo.unary main_c_14 main_v46 (broadcastInDim S16384 ![] bcast_S_S16384 : (⟨S_, .i32⟩ : BufTy).Contents (Elt F) → (⟨S16384, .i32⟩ : BufTy).Contents (Elt F)),
    StableHlo.binary main_v34 main_v46 main_v47 (addi : (⟨S16384, .i32⟩ : BufTy).Contents (Elt F) → (⟨S16384, .i32⟩ : BufTy).Contents (Elt F) → (⟨S16384, .i32⟩ : BufTy).Contents (Elt F)),
    StableHlo.ternary main_v45 main_v47 main_v34 main_v48 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_15 (constantI S_ 32 0#32),
    StableHlo.unary main_c_15 main_v49 (broadcastInDim S16384 ![] bcast_S_S16384 : (⟨S_, .i32⟩ : BufTy).Contents (Elt F) → (⟨S16384, .i32⟩ : BufTy).Contents (Elt F)),
    StableHlo.binary main_v35 main_v49 main_v50 (cmpi .slt : (⟨S16384, .i32⟩ : BufTy).Contents (Elt F) → (⟨S16384, .i32⟩ : BufTy).Contents (Elt F) → (⟨S16384, .i1⟩ : BufTy).Contents (Elt F)),
    StableHlo.nullary main_c_16 (constantI S_ 32 2048#32),
    StableHlo.unary main_c_16 main_v51 (broadcastInDim S16384 ![] bcast_S_S16384 : (⟨S_, .i32⟩ : BufTy).Contents (Elt F) → (⟨S16384, .i32⟩ : BufTy).Contents (Elt F)),
    StableHlo.binary main_v35 main_v51 main_v52 (addi : (⟨S16384, .i32⟩ : BufTy).Contents (Elt F) → (⟨S16384, .i32⟩ : BufTy).Contents (Elt F) → (⟨S16384, .i32⟩ : BufTy).Contents (Elt F)),
    StableHlo.ternary main_v50 main_v52 main_v35 main_v53 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v48 main_v54 (broadcastInDim S16384x1 ![0] bcast_S16384_S16384x1_0 : (⟨S16384, .i32⟩ : BufTy).Contents (Elt F) → (⟨S16384x1, .i32⟩ : BufTy).Contents (Elt F)),
    StableHlo.unary main_v53 main_v55 (broadcastInDim S16384x1 ![0] bcast_S16384_S16384x1_0 : (⟨S16384, .i32⟩ : BufTy).Contents (Elt F) → (⟨S16384x1, .i32⟩ : BufTy).Contents (Elt F)),
    StableHlo.binary main_v54 main_v55 main_v56 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v36 main_v56 main_v43 main_v57 ((fun x i u => Host.scatter scatter_S9x2048x1024_S16384x2_S16384x1024_1_01_01_1 (fun _ b => b) x i u) : (⟨S9x2048x1024, .f32⟩ : BufTy).Contents (Elt F) → (⟨S16384x2, .i32⟩ : BufTy).Contents (Elt F) → (⟨S16384x1024, .f32⟩ : BufTy).Contents (Elt F) → (⟨S9x2048x1024, .f32⟩ : BufTy).Contents (Elt F)),
    StableHlo.unary main_v57 main_v58 ((extractStridedSlice S8x2048x1024 ![0, 0, 0] · slices_S9x2048x1024_S8x2048x1024_0_0_0) : (⟨S9x2048x1024, .f32⟩ : BufTy).Contents (Elt F) → (⟨S8x2048x1024, .f32⟩ : BufTy).Contents (Elt F)),
    StableHlo.binary main_v58 main_arg2 main_v59 ((fun l r => Host.dotGeneral dot_S8x2048x1024_S8x1024x4096_S8x2048x4096_2_1_1_2_0_0 none l r) : (⟨S8x2048x1024, .f32⟩ : BufTy).Contents (Elt F) → (⟨S8x1024x4096, .f32⟩ : BufTy).Contents (Elt F) → (⟨S8x2048x4096, .f32⟩ : BufTy).Contents (Elt F)),
    StableHlo.binary main_v59 main_v59 main_v60 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v60 main_v59 main_v61 (mulf : (⟨S8x2048x4096, .f32⟩ : BufTy).Contents (Elt F) → (⟨S8x2048x4096, .f32⟩ : BufTy).Contents (Elt F) → (⟨S8x2048x4096, .f32⟩ : BufTy).Contents (Elt F)),
    StableHlo.nullary main_cst_17 (constant S_ .f32 0x3D372713#32),
    StableHlo.unary main_cst_17 main_v62 (broadcastInDim S8x2048x4096 ![] bcast_S_S8x2048x4096 : (⟨S_, .f32⟩ : BufTy).Contents (Elt F) → (⟨S8x2048x4096, .f32⟩ : BufTy).Contents (Elt F)),
    StableHlo.binary main_v62 main_v61 main_v63 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v59 main_v63 main_v64 (addf : (⟨S8x2048x4096, .f32⟩ : BufTy).Contents (Elt F) → (⟨S8x2048x4096, .f32⟩ : BufTy).Contents (Elt F) → (⟨S8x2048x4096, .f32⟩ : BufTy).Contents (Elt F)),
    StableHlo.nullary main_cst_18 (constant S_ .f32 0x3F4C422A#32),
    StableHlo.unary main_cst_18 main_v65 (broadcastInDim S8x2048x4096 ![] bcast_S_S8x2048x4096 : (⟨S_, .f32⟩ : BufTy).Contents (Elt F) → (⟨S8x2048x4096, .f32⟩ : BufTy).Contents (Elt F)),
    StableHlo.binary main_v65 main_v64 main_v66 (mulf : (⟨S8x2048x4096, .f32⟩ : BufTy).Contents (Elt F) → (⟨S8x2048x4096, .f32⟩ : BufTy).Contents (Elt F) → (⟨S8x2048x4096, .f32⟩ : BufTy).Contents (Elt F)),
    StableHlo.unary main_v66 main_v67 (Host.tanh : (⟨S8x2048x4096, .f32⟩ : BufTy).Contents (Elt F) → (⟨S8x2048x4096, .f32⟩ : BufTy).Contents (Elt F)),
    StableHlo.nullary main_cst_19 (constant S_ .f32 0x3F800000#32),
    StableHlo.unary main_cst_19 main_v68 (broadcastInDim S8x2048x4096 ![] bcast_S_S8x2048x4096 : (⟨S_, .f32⟩ : BufTy).Contents (Elt F) → (⟨S8x2048x4096, .f32⟩ : BufTy).Contents (Elt F)),
    StableHlo.binary main_v68 main_v67 main_v69 (addf : (⟨S8x2048x4096, .f32⟩ : BufTy).Contents (Elt F) → (⟨S8x2048x4096, .f32⟩ : BufTy).Contents (Elt F) → (⟨S8x2048x4096, .f32⟩ : BufTy).Contents (Elt F)),
    StableHlo.nullary main_cst_20 (constant S_ .f32 0x3F000000#32),
    StableHlo.unary main_cst_20 main_v70 (broadcastInDim S8x2048x4096 ![] bcast_S_S8x2048x4096 : (⟨S_, .f32⟩ : BufTy).Contents (Elt F) → (⟨S8x2048x4096, .f32⟩ : BufTy).Contents (Elt F)),
    StableHlo.binary main_v70 main_v69 main_v71 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v59 main_v71 main_v72 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v72 main_arg3 main_v73 ((fun l r => Host.dotGeneral dot_S8x2048x4096_S8x4096x1024_S8x2048x1024_2_1_1_2_0_0 none l r) : (⟨S8x2048x4096, .f32⟩ : BufTy).Contents (Elt F) → (⟨S8x4096x1024, .f32⟩ : BufTy).Contents (Elt F) → (⟨S8x2048x1024, .f32⟩ : BufTy).Contents (Elt F)),
    StableHlo.nullary main_c_21 (constantI S_ 32 0#32),
    StableHlo.unary main_c_21 main_v74 (broadcastInDim S16384 ![] bcast_S_S16384 : (⟨S_, .i32⟩ : BufTy).Contents (Elt F) → (⟨S16384, .i32⟩ : BufTy).Contents (Elt F)),
    StableHlo.binary main_v10 main_v74 main_v75 (cmpi .slt : (⟨S16384, .i32⟩ : BufTy).Contents (Elt F) → (⟨S16384, .i32⟩ : BufTy).Contents (Elt F) → (⟨S16384, .i1⟩ : BufTy).Contents (Elt F)),
    StableHlo.nullary main_c_22 (constantI S_ 32 8#32),
    StableHlo.unary main_c_22 main_v76 (broadcastInDim S16384 ![] bcast_S_S16384 : (⟨S_, .i32⟩ : BufTy).Contents (Elt F) → (⟨S16384, .i32⟩ : BufTy).Contents (Elt F)),
    StableHlo.binary main_v10 main_v76 main_v77 (addi : (⟨S16384, .i32⟩ : BufTy).Contents (Elt F) → (⟨S16384, .i32⟩ : BufTy).Contents (Elt F) → (⟨S16384, .i32⟩ : BufTy).Contents (Elt F)),
    StableHlo.ternary main_v75 main_v77 main_v10 main_v78 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_23 (constantI S_ 32 0#32),
    StableHlo.unary main_c_23 main_v79 (broadcastInDim S16384 ![] bcast_S_S16384 : (⟨S_, .i32⟩ : BufTy).Contents (Elt F) → (⟨S16384, .i32⟩ : BufTy).Contents (Elt F)),
    StableHlo.binary main_v35 main_v79 main_v80 (cmpi .slt : (⟨S16384, .i32⟩ : BufTy).Contents (Elt F) → (⟨S16384, .i32⟩ : BufTy).Contents (Elt F) → (⟨S16384, .i1⟩ : BufTy).Contents (Elt F)),
    StableHlo.nullary main_c_24 (constantI S_ 32 2048#32),
    StableHlo.unary main_c_24 main_v81 (broadcastInDim S16384 ![] bcast_S_S16384 : (⟨S_, .i32⟩ : BufTy).Contents (Elt F) → (⟨S16384, .i32⟩ : BufTy).Contents (Elt F)),
    StableHlo.binary main_v35 main_v81 main_v82 (addi : (⟨S16384, .i32⟩ : BufTy).Contents (Elt F) → (⟨S16384, .i32⟩ : BufTy).Contents (Elt F) → (⟨S16384, .i32⟩ : BufTy).Contents (Elt F)),
    StableHlo.ternary main_v80 main_v82 main_v35 main_v83 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v78 main_v84 (broadcastInDim S16384x1 ![0] bcast_S16384_S16384x1_0 : (⟨S16384, .i32⟩ : BufTy).Contents (Elt F) → (⟨S16384x1, .i32⟩ : BufTy).Contents (Elt F)),
    StableHlo.unary main_v83 main_v85 (broadcastInDim S16384x1 ![0] bcast_S16384_S16384x1_0 : (⟨S16384, .i32⟩ : BufTy).Contents (Elt F) → (⟨S16384x1, .i32⟩ : BufTy).Contents (Elt F)),
    StableHlo.binary main_v84 main_v85 main_v86 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v73 main_v86 main_v87 ((fun x i => Host.gather gather_S8x2048x1024_S16384x2_S16384x1024_1_01_n_n_01_1_111024 x i) : (⟨S8x2048x1024, .f32⟩ : BufTy).Contents (Elt F) → (⟨S16384x2, .i32⟩ : BufTy).Contents (Elt F) → (⟨S16384x1024, .f32⟩ : BufTy).Contents (Elt F)),
    StableHlo.nullary main_c_25 (constantI S_ 32 0#32),
    StableHlo.unary main_c_25 main_v88 (broadcastInDim S16384 ![] bcast_S_S16384 : (⟨S_, .i32⟩ : BufTy).Contents (Elt F) → (⟨S16384, .i32⟩ : BufTy).Contents (Elt F)),
    StableHlo.binary main_v3 main_v88 main_v89 (cmpi .slt : (⟨S16384, .i32⟩ : BufTy).Contents (Elt F) → (⟨S16384, .i32⟩ : BufTy).Contents (Elt F) → (⟨S16384, .i1⟩ : BufTy).Contents (Elt F)),
    StableHlo.nullary main_c_26 (constantI S_ 32 16384#32),
    StableHlo.unary main_c_26 main_v90 (broadcastInDim S16384 ![] bcast_S_S16384 : (⟨S_, .i32⟩ : BufTy).Contents (Elt F) → (⟨S16384, .i32⟩ : BufTy).Contents (Elt F)) ]
theorem w1_0_sub : (w1_0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩

/-- Window 2 of @main, item 0: 24 operations in order. -/
abbrev w2_0 : List (HloOp τ sig (Elt F)) :=
  [ StableHlo.binary main_v3 main_v90 main_v91 (addi : (⟨S16384, .i32⟩ : BufTy).Contents (Elt F) → (⟨S16384, .i32⟩ : BufTy).Contents (Elt F) → (⟨S16384, .i32⟩ : BufTy).Contents (Elt F)),
    StableHlo.ternary main_v89 main_v91 main_v3 main_v92 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v92 main_v93 (broadcastInDim S16384x1 ![0] bcast_S16384_S16384x1_0 : (⟨S16384, .i32⟩ : BufTy).Contents (Elt F) → (⟨S16384x1, .i32⟩ : BufTy).Contents (Elt F)),
    StableHlo.binary main_v2 main_v93 main_v94 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)),
    StableHlo.unary main_v32 main_v95 (uitofp .f32 : (⟨S16384, .i1⟩ : BufTy).Contents (Elt F) → (⟨S16384, .f32⟩ : BufTy).Contents (Elt F)),
    StableHlo.binary main_v94 main_v95 main_v96 (mulf : (⟨S16384, .f32⟩ : BufTy).Contents (Elt F) → (⟨S16384, .f32⟩ : BufTy).Contents (Elt F) → (⟨S16384, .f32⟩ : BufTy).Contents (Elt F)),
    StableHlo.unary main_v96 main_v97 (broadcastInDim S16384x1 ![0] bcast_S16384_S16384x1_0 : (⟨S16384, .f32⟩ : BufTy).Contents (Elt F) → (⟨S16384x1, .f32⟩ : BufTy).Contents (Elt F)),
    StableHlo.unary main_v97 main_v98 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v87 main_v98 main_v99 (mulf : (⟨S16384x1024, .f32⟩ : BufTy).Contents (Elt F) → (⟨S16384x1024, .f32⟩ : BufTy).Contents (Elt F) → (⟨S16384x1024, .f32⟩ : BufTy).Contents (Elt F)),
    StableHlo.nullary main_cst_27 (constant S_ .f32 0x00000000#32),
    StableHlo.unary main_cst_27 main_v100 (broadcastInDim S8192x1024 ![] bcast_S_S8192x1024 : (⟨S_, .f32⟩ : BufTy).Contents (Elt F) → (⟨S8192x1024, .f32⟩ : BufTy).Contents (Elt F)),
    StableHlo.nullary main_c_28 (constantI S_ 32 0#32),
    StableHlo.unary main_c_28 main_v101 (broadcastInDim S16384 ![] bcast_S_S16384 : (⟨S_, .i32⟩ : BufTy).Contents (Elt F) → (⟨S16384, .i32⟩ : BufTy).Contents (Elt F)),
    StableHlo.binary main_v33 main_v101 main_v102 (cmpi .slt : (⟨S16384, .i32⟩ : BufTy).Contents (Elt F) → (⟨S16384, .i32⟩ : BufTy).Contents (Elt F) → (⟨S16384, .i1⟩ : BufTy).Contents (Elt F)),
    StableHlo.nullary main_c_29 (constantI S_ 32 8192#32),
    StableHlo.unary main_c_29 main_v103 (broadcastInDim S16384 ![] bcast_S_S16384 : (⟨S_, .i32⟩ : BufTy).Contents (Elt F) → (⟨S16384, .i32⟩ : BufTy).Contents (Elt F)),
    StableHlo.binary main_v33 main_v103 main_v104 (addi : (⟨S16384, .i32⟩ : BufTy).Contents (Elt F) → (⟨S16384, .i32⟩ : BufTy).Contents (Elt F) → (⟨S16384, .i32⟩ : BufTy).Contents (Elt F)),
    StableHlo.ternary main_v102 main_v104 main_v33 main_v105 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v105 main_v106 (broadcastInDim S16384x1 ![0] bcast_S16384_S16384x1_0 : (⟨S16384, .i32⟩ : BufTy).Contents (Elt F) → (⟨S16384x1, .i32⟩ : BufTy).Contents (Elt F)),
    StableHlo.ternary main_v100 main_v106 main_v99 main_v107 ((fun x i u => Host.scatterAdd scatter_S8192x1024_S16384x1_S16384x1024_1_0_0_1 x i u) : (⟨S8192x1024, .f32⟩ : BufTy).Contents (Elt F) → (⟨S16384x1, .i32⟩ : BufTy).Contents (Elt F) → (⟨S16384x1024, .f32⟩ : BufTy).Contents (Elt F) → (⟨S8192x1024, .f32⟩ : BufTy).Contents (Elt F)),
    StableHlo.reshape main_v107 main_v108 rfl shapeCasts_S8192x1024_S4x2048x1024,
    StableHlo.unary main_arg4 main_v109 (broadcastInDim S1x1x1024 ![2] bcast_S1024_S1x1x1024_2 : (⟨S1024, .f32⟩ : BufTy).Contents (Elt F) → (⟨S1x1x1024, .f32⟩ : BufTy).Contents (Elt F)),
    StableHlo.unary main_v109 main_v110 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v108 main_v110 main_v111 (addf : (⟨S4x2048x1024, .f32⟩ : BufTy).Contents (Elt F) → (⟨S4x2048x1024, .f32⟩ : BufTy).Contents (Elt F) → (⟨S4x2048x1024, .f32⟩ : BufTy).Contents (Elt F)) ]
theorem w2_0_sub : (w2_0 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.reshape_bufs_sub .., StableHlo.unary_bufs_sub .., StableHlo.unary_bufs_sub .., StableHlo.binary_bufs_sub ..⟩

/-- The routing and the gather into per-expert rows: 102 operations, ending with the sliced buffer. -/
abbrev headOps : List (HloOp τ sig (Elt F)) :=
  [ StableHlo.reshape main_arg0 main_v0 rfl shapeCasts_S4x2048x1024_S8192x1024,
    StableHlo.reshape main_arg5 main_v1 rfl shapeCasts_S8192x2_S16384,
    StableHlo.reshape main_arg1 main_v2 rfl shapeCasts_S8192x2_S16384,
    StableHlo.TRef.nullary (.of main_call0_v0 : StableHlo.TRef sig ⟨S16384, .i32⟩) (iotaInDim S16384 32 0),
    StableHlo.TRef.binary (.of main_v1 : StableHlo.TRef sig ⟨S16384, .i32⟩) (.of main_call0_v0 : StableHlo.TRef sig ⟨S16384, .i32⟩) (.of main_call0_v1_0 : StableHlo.TRef sig ⟨S16384, .i32⟩) (fun x y => (Host.sort2 S16384 0 comparator_i32_i32_d0 x y).1),
    StableHlo.TRef.binary (.of main_v1 : StableHlo.TRef sig ⟨S16384, .i32⟩) (.of main_call0_v0 : StableHlo.TRef sig ⟨S16384, .i32⟩) (.of main_v3 : StableHlo.TRef sig ⟨S16384, .i32⟩) (fun x y => (Host.sort2 S16384 0 comparator_i32_i32_d0 x y).2),
    StableHlo.nullary main_c (constantI S_ 32 0#32),
    StableHlo.unary main_c main_v4 (broadcastInDim S16384 ![] bcast_S_S16384 : (⟨S_, .i32⟩ : BufTy).Contents (Elt F) → (⟨S16384, .i32⟩ : BufTy).Contents (Elt F)),
    StableHlo.binary main_v3 main_v4 main_v5 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 16384#32),
    StableHlo.unary main_c_0 main_v6 (broadcastInDim S16384 ![] bcast_S_S16384 : (⟨S_, .i32⟩ : BufTy).Contents (Elt F) → (⟨S16384, .i32⟩ : BufTy).Contents (Elt F)),
    StableHlo.binary main_v3 main_v6 main_v7 (addi : (⟨S16384, .i32⟩ : BufTy).Contents (Elt F) → (⟨S16384, .i32⟩ : BufTy).Contents (Elt F) → (⟨S16384, .i32⟩ : BufTy).Contents (Elt F)),
    StableHlo.ternary main_v5 main_v7 main_v3 main_v8 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v8 main_v9 (broadcastInDim S16384x1 ![0] bcast_S16384_S16384x1_0 : (⟨S16384, .i32⟩ : BufTy).Contents (Elt F) → (⟨S16384x1, .i32⟩ : BufTy).Contents (Elt F)),
    StableHlo.binary main_v1 main_v9 main_v10 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_1 (constantI S_ 32 0#32),
    StableHlo.unary main_c_1 main_v11 (broadcastInDim S8 ![] bcast_S_S8 : (⟨S_, .i32⟩ : BufTy).Contents (Elt F) → (⟨S8, .i32⟩ : BufTy).Contents (Elt F)),
    StableHlo.nullary main_c_2 (constantI S_ 32 0#32),
    StableHlo.unary main_c_2 main_v12 (broadcastInDim S16384 ![] bcast_S_S16384 : (⟨S_, .i32⟩ : BufTy).Contents (Elt F) → (⟨S16384, .i32⟩ : BufTy).Contents (Elt F)),
    StableHlo.binary main_v1 main_v12 main_v13 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 8#32),
    StableHlo.unary main_c_3 main_v14 (broadcastInDim S16384 ![] bcast_S_S16384 : (⟨S_, .i32⟩ : BufTy).Contents (Elt F) → (⟨S16384, .i32⟩ : BufTy).Contents (Elt F)),
    StableHlo.binary main_v1 main_v14 main_v15 (addi : (⟨S16384, .i32⟩ : BufTy).Contents (Elt F) → (⟨S16384, .i32⟩ : BufTy).Contents (Elt F) → (⟨S16384, .i32⟩ : BufTy).Contents (Elt F)),
    StableHlo.ternary main_v13 main_v15 main_v1 main_v16 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v16 main_v17 (broadcastInDim S16384x1 ![0] bcast_S16384_S16384x1_0 : (⟨S16384, .i32⟩ : BufTy).Contents (Elt F) → (⟨S16384x1, .i32⟩ : BufTy).Contents (Elt F)),
    StableHlo.nullary main_c_4 (constantI S_ 32 1#32),
    StableHlo.unary main_c_4 main_v18 (broadcastInDim S16384 ![] bcast_S_S16384 : (⟨S_, .i32⟩ : BufTy).Contents (Elt F) → (⟨S16384, .i32⟩ : BufTy).Contents (Elt F)),
    StableHlo.ternary main_v11 main_v17 main_v18 main_v19 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v19 : StableHlo.TRef sig ⟨S8, .i32⟩) (.of main_call1_call0_v0 : StableHlo.TRef sig ⟨S_, .i32⟩) (.of main_v20 : StableHlo.TRef sig ⟨S8, .i32⟩) (fun x v => Host.reduceWindow IntOp.addi ![8] ![1] ![7] ![0] x v reduceWindows_S8_S8_w8s1p7_0 h_S_),
    StableHlo.binary main_v20 main_v19 main_v21 (subi : (⟨S8, .i32⟩ : BufTy).Contents (Elt F) → (⟨S8, .i32⟩ : BufTy).Contents (Elt F) → (⟨S8, .i32⟩ : BufTy).Contents (Elt F)),
    StableHlo.nullary main_v22 (iotaInDim S16384 32 0),
    StableHlo.nullary main_c_5 (constantI S_ 32 0#32),
    StableHlo.unary main_c_5 main_v23 (broadcastInDim S16384 ![] bcast_S_S16384 : (⟨S_, .i32⟩ : BufTy).Contents (Elt F) → (⟨S16384, .i32⟩ : BufTy).Contents (Elt F)),
    StableHlo.binary main_v10 main_v23 main_v24 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 8#32),
    StableHlo.unary main_c_6 main_v25 (broadcastInDim S16384 ![] bcast_S_S16384 : (⟨S_, .i32⟩ : BufTy).Contents (Elt F) → (⟨S16384, .i32⟩ : BufTy).Contents (Elt F)),
    StableHlo.binary main_v10 main_v25 main_v26 (addi : (⟨S16384, .i32⟩ : BufTy).Contents (Elt F) → (⟨S16384, .i32⟩ : BufTy).Contents (Elt F) → (⟨S16384, .i32⟩ : BufTy).Contents (Elt F)),
    StableHlo.ternary main_v24 main_v26 main_v10 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v27 main_v28 (broadcastInDim S16384x1 ![0] bcast_S16384_S16384x1_0 : (⟨S16384, .i32⟩ : BufTy).Contents (Elt F) → (⟨S16384x1, .i32⟩ : BufTy).Contents (Elt F)),
    StableHlo.binary main_v21 main_v28 main_v29 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F)),
    StableHlo.binary main_v22 main_v29 main_v30 (subi : (⟨S16384, .i32⟩ : BufTy).Contents (Elt F) → (⟨S16384, .i32⟩ : BufTy).Contents (Elt F) → (⟨S16384, .i32⟩ : BufTy).Contents (Elt F)),
    StableHlo.nullary main_c_7 (constantI S_ 32 2048#32),
    StableHlo.unary main_c_7 main_v31 (broadcastInDim S16384 ![] bcast_S_S16384 : (⟨S_, .i32⟩ : BufTy).Contents (Elt F) → (⟨S16384, .i32⟩ : BufTy).Contents (Elt F)),
    StableHlo.binary main_v30 main_v31 main_v32 (cmpi .slt : (⟨S16384, .i32⟩ : BufTy).Contents (Elt F) → (⟨S16384, .i32⟩ : BufTy).Contents (Elt F) → (⟨S16384, .i1⟩ : BufTy).Contents (Elt F)),
    StableHlo.nullary main_c_8 (constantI S_ 32 2#32),
    StableHlo.TRef.unary (.of main_c_8 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16384, .i32⟩) (broadcastInDim S16384 ![] bcast_S_S16384),
    StableHlo.TRef.binary (.of main_v3 : StableHlo.TRef sig ⟨S16384, .i32⟩) (.of main_call2_v1 : StableHlo.TRef sig ⟨S16384, .i32⟩) (.of main_call2_v2 : StableHlo.TRef sig ⟨S16384, .i32⟩) Host.divsi,
    StableHlo.TRef.unary (.of main_v3 : StableHlo.TRef sig ⟨S16384, .i32⟩) (.of main_call2_v3 : StableHlo.TRef sig ⟨S16384, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S16384, .i32⟩) (broadcastInDim S16384 ![] bcast_S_S16384),
    StableHlo.TRef.binary (.of main_call2_v3 : StableHlo.TRef sig ⟨S16384, .i32⟩) (.of main_call2_v5 : StableHlo.TRef sig ⟨S16384, .i32⟩) (.of main_call2_v6 : StableHlo.TRef sig ⟨S16384, .i1⟩) (cmpi .ne),
    StableHlo.TRef.unary (.of main_call2_v0 : StableHlo.TRef sig ⟨S_, .i32⟩) (.of main_call2_v7 : StableHlo.TRef sig ⟨S16384, .i32⟩) (broadcastInDim S16384 ![] bcast_S_S16384),
    StableHlo.TRef.binary (.of main_v3 : StableHlo.TRef sig ⟨S16384, .i32⟩) (.of main_call2_v7 : StableHlo.TRef sig ⟨S16384, .i32⟩) (.of main_call2_v8 : StableHlo.TRef sig ⟨S16384, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S16384, .i32⟩) (broadcastInDim S16384 ![] bcast_S_S16384),
    StableHlo.TRef.binary (.of main_call2_v8 : StableHlo.TRef sig ⟨S16384, .i32⟩) (.of main_call2_v9 : StableHlo.TRef sig ⟨S16384, .i32⟩) (.of main_call2_v10 : StableHlo.TRef sig ⟨S16384, .i1⟩) (cmpi .ne),
    StableHlo.TRef.binary (.of main_call2_v6 : StableHlo.TRef sig ⟨S16384, .i1⟩) (.of main_call2_v10 : StableHlo.TRef sig ⟨S16384, .i1⟩) (.of main_call2_v11 : StableHlo.TRef sig ⟨S16384, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S16384, .i32⟩) (broadcastInDim S16384 ![] bcast_S_S16384),
    StableHlo.TRef.binary (.of main_call2_v2 : StableHlo.TRef sig ⟨S16384, .i32⟩) (.of main_call2_v12 : StableHlo.TRef sig ⟨S16384, .i32⟩) (.of main_call2_v13 : StableHlo.TRef sig ⟨S16384, .i32⟩) subi,
    StableHlo.TRef.ternary (.of main_call2_v11 : StableHlo.TRef sig ⟨S16384, .i1⟩) (.of main_call2_v13 : StableHlo.TRef sig ⟨S16384, .i32⟩) (.of main_call2_v2 : StableHlo.TRef sig ⟨S16384, .i32⟩) (.of main_v33 : StableHlo.TRef sig ⟨S16384, .i32⟩) select,
    StableHlo.nullary main_c_9 (constantI S_ 32 8#32),
    StableHlo.TRef.unary (.of main_c_9 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384, .i32⟩) (broadcastInDim S16384 ![] bcast_S_S16384),
    StableHlo.TRef.ternary (.of main_v32 : StableHlo.TRef sig ⟨S16384, .i1⟩) (.of main_v10 : StableHlo.TRef sig ⟨S16384, .i32⟩) (.of main_call3_v1 : StableHlo.TRef sig ⟨S16384, .i32⟩) (.of main_v34 : StableHlo.TRef sig ⟨S16384, .i32⟩) select,
    StableHlo.nullary main_c_10 (constantI S_ 32 0#32),
    StableHlo.TRef.unary (.of main_c_10 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S16384, .i32⟩) (broadcastInDim S16384 ![] bcast_S_S16384),
    StableHlo.TRef.ternary (.of main_v32 : StableHlo.TRef sig ⟨S16384, .i1⟩) (.of main_v30 : StableHlo.TRef sig ⟨S16384, .i32⟩) (.of main_call4_v1 : StableHlo.TRef sig ⟨S16384, .i32⟩) (.of main_v35 : StableHlo.TRef sig ⟨S16384, .i32⟩) select,
    StableHlo.nullary main_cst (constant S_ .f32 0x00000000#32),
    StableHlo.unary main_cst main_v36 (broadcastInDim S9x2048x1024 ![] bcast_S_S9x2048x1024 : (⟨S_, .f32⟩ : BufTy).Contents (Elt F) → (⟨S9x2048x1024, .f32⟩ : BufTy).Contents (Elt F)),
    StableHlo.nullary main_c_11 (constantI S_ 32 0#32),
    StableHlo.unary main_c_11 main_v37 (broadcastInDim S16384 ![] bcast_S_S16384 : (⟨S_, .i32⟩ : BufTy).Contents (Elt F) → (⟨S16384, .i32⟩ : BufTy).Contents (Elt F)),
    StableHlo.binary main_v33 main_v37 main_v38 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 8192#32),
    StableHlo.unary main_c_12 main_v39 (broadcastInDim S16384 ![] bcast_S_S16384 : (⟨S_, .i32⟩ : BufTy).Contents (Elt F) → (⟨S16384, .i32⟩ : BufTy).Contents (Elt F)),
    StableHlo.binary main_v33 main_v39 main_v40 (addi : (⟨S16384, .i32⟩ : BufTy).Contents (Elt F) → (⟨S16384, .i32⟩ : BufTy).Contents (Elt F) → (⟨S16384, .i32⟩ : BufTy).Contents (Elt F)),
    StableHlo.ternary main_v38 main_v40 main_v33 main_v41 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v41 main_v42 (broadcastInDim S16384x1 ![0] bcast_S16384_S16384x1_0 : (⟨S16384, .i32⟩ : BufTy).Contents (Elt F) → (⟨S16384x1, .i32⟩ : BufTy).Contents (Elt F)),
    StableHlo.binary main_v0 main_v42 main_v43 ((fun x i => Host.gather gather_S8192x1024_S16384x1_S16384x1024_1_0_n_n_0_1_11024 x i) : (⟨S8192x1024, .f32⟩ : BufTy).Contents (Elt F) → (⟨S16384x1, .i32⟩ : BufTy).Contents (Elt F) → (⟨S16384x1024, .f32⟩ : BufTy).Contents (Elt F)),
    StableHlo.nullary main_c_13 (constantI S_ 32 0#32),
    StableHlo.unary main_c_13 main_v44 (broadcastInDim S16384 ![] bcast_S_S16384 : (⟨S_, .i32⟩ : BufTy).Contents (Elt F) → (⟨S16384, .i32⟩ : BufTy).Contents (Elt F)),
    StableHlo.binary main_v34 main_v44 main_v45 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 9#32),
    StableHlo.unary main_c_14 main_v46 (broadcastInDim S16384 ![] bcast_S_S16384 : (⟨S_, .i32⟩ : BufTy).Contents (Elt F) → (⟨S16384, .i32⟩ : BufTy).Contents (Elt F)),
    StableHlo.binary main_v34 main_v46 main_v47 (addi : (⟨S16384, .i32⟩ : BufTy).Contents (Elt F) → (⟨S16384, .i32⟩ : BufTy).Contents (Elt F) → (⟨S16384, .i32⟩ : BufTy).Contents (Elt F)),
    StableHlo.ternary main_v45 main_v47 main_v34 main_v48 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_15 (constantI S_ 32 0#32),
    StableHlo.unary main_c_15 main_v49 (broadcastInDim S16384 ![] bcast_S_S16384 : (⟨S_, .i32⟩ : BufTy).Contents (Elt F) → (⟨S16384, .i32⟩ : BufTy).Contents (Elt F)),
    StableHlo.binary main_v35 main_v49 main_v50 (cmpi .slt : (⟨S16384, .i32⟩ : BufTy).Contents (Elt F) → (⟨S16384, .i32⟩ : BufTy).Contents (Elt F) → (⟨S16384, .i1⟩ : BufTy).Contents (Elt F)),
    StableHlo.nullary main_c_16 (constantI S_ 32 2048#32),
    StableHlo.unary main_c_16 main_v51 (broadcastInDim S16384 ![] bcast_S_S16384 : (⟨S_, .i32⟩ : BufTy).Contents (Elt F) → (⟨S16384, .i32⟩ : BufTy).Contents (Elt F)),
    StableHlo.binary main_v35 main_v51 main_v52 (addi : (⟨S16384, .i32⟩ : BufTy).Contents (Elt F) → (⟨S16384, .i32⟩ : BufTy).Contents (Elt F) → (⟨S16384, .i32⟩ : BufTy).Contents (Elt F)),
    StableHlo.ternary main_v50 main_v52 main_v35 main_v53 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v48 main_v54 (broadcastInDim S16384x1 ![0] bcast_S16384_S16384x1_0 : (⟨S16384, .i32⟩ : BufTy).Contents (Elt F) → (⟨S16384x1, .i32⟩ : BufTy).Contents (Elt F)),
    StableHlo.unary main_v53 main_v55 (broadcastInDim S16384x1 ![0] bcast_S16384_S16384x1_0 : (⟨S16384, .i32⟩ : BufTy).Contents (Elt F) → (⟨S16384x1, .i32⟩ : BufTy).Contents (Elt F)),
    StableHlo.binary main_v54 main_v55 main_v56 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v36 main_v56 main_v43 main_v57 ((fun x i u => Host.scatter scatter_S9x2048x1024_S16384x2_S16384x1024_1_01_01_1 (fun _ b => b) x i u) : (⟨S9x2048x1024, .f32⟩ : BufTy).Contents (Elt F) → (⟨S16384x2, .i32⟩ : BufTy).Contents (Elt F) → (⟨S16384x1024, .f32⟩ : BufTy).Contents (Elt F) → (⟨S9x2048x1024, .f32⟩ : BufTy).Contents (Elt F)),
    StableHlo.unary main_v57 main_v58 ((extractStridedSlice S8x2048x1024 ![0, 0, 0] · slices_S9x2048x1024_S8x2048x1024_0_0_0) : (⟨S9x2048x1024, .f32⟩ : BufTy).Contents (Elt F) → (⟨S8x2048x1024, .f32⟩ : BufTy).Contents (Elt F)) ]
theorem headOps_sub : (headOps : List (HloOp τ sig (Elt F))).Forall fun op => op.bufs ⊆ StableHlo.tcRefs τ sig :=
  ⟨StableHlo.reshape_bufs_sub .., StableHlo.reshape_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub ..⟩

/-- The two products with the tanh gate between them: 19 operations. -/
abbrev midOps : List (HloOp τ sig (Elt F)) :=
  [ StableHlo.binary main_v58 main_arg2 main_v59 ((fun l r => Host.dotGeneral dot_S8x2048x1024_S8x1024x4096_S8x2048x4096_2_1_1_2_0_0 none l r) : (⟨S8x2048x1024, .f32⟩ : BufTy).Contents (Elt F) → (⟨S8x1024x4096, .f32⟩ : BufTy).Contents (Elt F) → (⟨S8x2048x4096, .f32⟩ : BufTy).Contents (Elt F)),
    StableHlo.binary main_v59 main_v59 main_v60 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v60 main_v59 main_v61 (mulf : (⟨S8x2048x4096, .f32⟩ : BufTy).Contents (Elt F) → (⟨S8x2048x4096, .f32⟩ : BufTy).Contents (Elt F) → (⟨S8x2048x4096, .f32⟩ : BufTy).Contents (Elt F)),
    StableHlo.nullary main_cst_17 (constant S_ .f32 0x3D372713#32),
    StableHlo.unary main_cst_17 main_v62 (broadcastInDim S8x2048x4096 ![] bcast_S_S8x2048x4096 : (⟨S_, .f32⟩ : BufTy).Contents (Elt F) → (⟨S8x2048x4096, .f32⟩ : BufTy).Contents (Elt F)),
    StableHlo.binary main_v62 main_v61 main_v63 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v59 main_v63 main_v64 (addf : (⟨S8x2048x4096, .f32⟩ : BufTy).Contents (Elt F) → (⟨S8x2048x4096, .f32⟩ : BufTy).Contents (Elt F) → (⟨S8x2048x4096, .f32⟩ : BufTy).Contents (Elt F)),
    StableHlo.nullary main_cst_18 (constant S_ .f32 0x3F4C422A#32),
    StableHlo.unary main_cst_18 main_v65 (broadcastInDim S8x2048x4096 ![] bcast_S_S8x2048x4096 : (⟨S_, .f32⟩ : BufTy).Contents (Elt F) → (⟨S8x2048x4096, .f32⟩ : BufTy).Contents (Elt F)),
    StableHlo.binary main_v65 main_v64 main_v66 (mulf : (⟨S8x2048x4096, .f32⟩ : BufTy).Contents (Elt F) → (⟨S8x2048x4096, .f32⟩ : BufTy).Contents (Elt F) → (⟨S8x2048x4096, .f32⟩ : BufTy).Contents (Elt F)),
    StableHlo.unary main_v66 main_v67 (Host.tanh : (⟨S8x2048x4096, .f32⟩ : BufTy).Contents (Elt F) → (⟨S8x2048x4096, .f32⟩ : BufTy).Contents (Elt F)),
    StableHlo.nullary main_cst_19 (constant S_ .f32 0x3F800000#32),
    StableHlo.unary main_cst_19 main_v68 (broadcastInDim S8x2048x4096 ![] bcast_S_S8x2048x4096 : (⟨S_, .f32⟩ : BufTy).Contents (Elt F) → (⟨S8x2048x4096, .f32⟩ : BufTy).Contents (Elt F)),
    StableHlo.binary main_v68 main_v67 main_v69 (addf : (⟨S8x2048x4096, .f32⟩ : BufTy).Contents (Elt F) → (⟨S8x2048x4096, .f32⟩ : BufTy).Contents (Elt F) → (⟨S8x2048x4096, .f32⟩ : BufTy).Contents (Elt F)),
    StableHlo.nullary main_cst_20 (constant S_ .f32 0x3F000000#32),
    StableHlo.unary main_cst_20 main_v70 (broadcastInDim S8x2048x4096 ![] bcast_S_S8x2048x4096 : (⟨S_, .f32⟩ : BufTy).Contents (Elt F) → (⟨S8x2048x4096, .f32⟩ : BufTy).Contents (Elt F)),
    StableHlo.binary main_v70 main_v69 main_v71 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v59 main_v71 main_v72 (mulf : (⟨S8x2048x4096, .f32⟩ : BufTy).Contents (Elt F) → (⟨S8x2048x4096, .f32⟩ : BufTy).Contents (Elt F) → (⟨S8x2048x4096, .f32⟩ : BufTy).Contents (Elt F)),
    StableHlo.binary main_v72 main_arg3 main_v73 ((fun l r => Host.dotGeneral dot_S8x2048x4096_S8x4096x1024_S8x2048x1024_2_1_1_2_0_0 none l r) : (⟨S8x2048x4096, .f32⟩ : BufTy).Contents (Elt F) → (⟨S8x4096x1024, .f32⟩ : BufTy).Contents (Elt F) → (⟨S8x2048x1024, .f32⟩ : BufTy).Contents (Elt F)) ]
theorem midOps_sub : (midOps : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- The weighted scatter back to tokens and the bias: 47 operations. -/
abbrev tailOps : List (HloOp τ sig (Elt F)) :=
  [ StableHlo.nullary main_c_21 (constantI S_ 32 0#32),
    StableHlo.unary main_c_21 main_v74 (broadcastInDim S16384 ![] bcast_S_S16384 : (⟨S_, .i32⟩ : BufTy).Contents (Elt F) → (⟨S16384, .i32⟩ : BufTy).Contents (Elt F)),
    StableHlo.binary main_v10 main_v74 main_v75 (cmpi .slt : (⟨S16384, .i32⟩ : BufTy).Contents (Elt F) → (⟨S16384, .i32⟩ : BufTy).Contents (Elt F) → (⟨S16384, .i1⟩ : BufTy).Contents (Elt F)),
    StableHlo.nullary main_c_22 (constantI S_ 32 8#32),
    StableHlo.unary main_c_22 main_v76 (broadcastInDim S16384 ![] bcast_S_S16384 : (⟨S_, .i32⟩ : BufTy).Contents (Elt F) → (⟨S16384, .i32⟩ : BufTy).Contents (Elt F)),
    StableHlo.binary main_v10 main_v76 main_v77 (addi : (⟨S16384, .i32⟩ : BufTy).Contents (Elt F) → (⟨S16384, .i32⟩ : BufTy).Contents (Elt F) → (⟨S16384, .i32⟩ : BufTy).Contents (Elt F)),
    StableHlo.ternary main_v75 main_v77 main_v10 main_v78 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_23 (constantI S_ 32 0#32),
    StableHlo.unary main_c_23 main_v79 (broadcastInDim S16384 ![] bcast_S_S16384 : (⟨S_, .i32⟩ : BufTy).Contents (Elt F) → (⟨S16384, .i32⟩ : BufTy).Contents (Elt F)),
    StableHlo.binary main_v35 main_v79 main_v80 (cmpi .slt : (⟨S16384, .i32⟩ : BufTy).Contents (Elt F) → (⟨S16384, .i32⟩ : BufTy).Contents (Elt F) → (⟨S16384, .i1⟩ : BufTy).Contents (Elt F)),
    StableHlo.nullary main_c_24 (constantI S_ 32 2048#32),
    StableHlo.unary main_c_24 main_v81 (broadcastInDim S16384 ![] bcast_S_S16384 : (⟨S_, .i32⟩ : BufTy).Contents (Elt F) → (⟨S16384, .i32⟩ : BufTy).Contents (Elt F)),
    StableHlo.binary main_v35 main_v81 main_v82 (addi : (⟨S16384, .i32⟩ : BufTy).Contents (Elt F) → (⟨S16384, .i32⟩ : BufTy).Contents (Elt F) → (⟨S16384, .i32⟩ : BufTy).Contents (Elt F)),
    StableHlo.ternary main_v80 main_v82 main_v35 main_v83 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v78 main_v84 (broadcastInDim S16384x1 ![0] bcast_S16384_S16384x1_0 : (⟨S16384, .i32⟩ : BufTy).Contents (Elt F) → (⟨S16384x1, .i32⟩ : BufTy).Contents (Elt F)),
    StableHlo.unary main_v83 main_v85 (broadcastInDim S16384x1 ![0] bcast_S16384_S16384x1_0 : (⟨S16384, .i32⟩ : BufTy).Contents (Elt F) → (⟨S16384x1, .i32⟩ : BufTy).Contents (Elt F)),
    StableHlo.binary main_v84 main_v85 main_v86 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v73 main_v86 main_v87 ((fun x i => Host.gather gather_S8x2048x1024_S16384x2_S16384x1024_1_01_n_n_01_1_111024 x i) : (⟨S8x2048x1024, .f32⟩ : BufTy).Contents (Elt F) → (⟨S16384x2, .i32⟩ : BufTy).Contents (Elt F) → (⟨S16384x1024, .f32⟩ : BufTy).Contents (Elt F)),
    StableHlo.nullary main_c_25 (constantI S_ 32 0#32),
    StableHlo.unary main_c_25 main_v88 (broadcastInDim S16384 ![] bcast_S_S16384 : (⟨S_, .i32⟩ : BufTy).Contents (Elt F) → (⟨S16384, .i32⟩ : BufTy).Contents (Elt F)),
    StableHlo.binary main_v3 main_v88 main_v89 (cmpi .slt : (⟨S16384, .i32⟩ : BufTy).Contents (Elt F) → (⟨S16384, .i32⟩ : BufTy).Contents (Elt F) → (⟨S16384, .i1⟩ : BufTy).Contents (Elt F)),
    StableHlo.nullary main_c_26 (constantI S_ 32 16384#32),
    StableHlo.unary main_c_26 main_v90 (broadcastInDim S16384 ![] bcast_S_S16384 : (⟨S_, .i32⟩ : BufTy).Contents (Elt F) → (⟨S16384, .i32⟩ : BufTy).Contents (Elt F)),
    StableHlo.binary main_v3 main_v90 main_v91 (addi : (⟨S16384, .i32⟩ : BufTy).Contents (Elt F) → (⟨S16384, .i32⟩ : BufTy).Contents (Elt F) → (⟨S16384, .i32⟩ : BufTy).Contents (Elt F)),
    StableHlo.ternary main_v89 main_v91 main_v3 main_v92 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v92 main_v93 (broadcastInDim S16384x1 ![0] bcast_S16384_S16384x1_0 : (⟨S16384, .i32⟩ : BufTy).Contents (Elt F) → (⟨S16384x1, .i32⟩ : BufTy).Contents (Elt F)),
    StableHlo.binary main_v2 main_v93 main_v94 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)),
    StableHlo.unary main_v32 main_v95 (uitofp .f32 : (⟨S16384, .i1⟩ : BufTy).Contents (Elt F) → (⟨S16384, .f32⟩ : BufTy).Contents (Elt F)),
    StableHlo.binary main_v94 main_v95 main_v96 (mulf : (⟨S16384, .f32⟩ : BufTy).Contents (Elt F) → (⟨S16384, .f32⟩ : BufTy).Contents (Elt F) → (⟨S16384, .f32⟩ : BufTy).Contents (Elt F)),
    StableHlo.unary main_v96 main_v97 (broadcastInDim S16384x1 ![0] bcast_S16384_S16384x1_0 : (⟨S16384, .f32⟩ : BufTy).Contents (Elt F) → (⟨S16384x1, .f32⟩ : BufTy).Contents (Elt F)),
    StableHlo.unary main_v97 main_v98 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v87 main_v98 main_v99 (mulf : (⟨S16384x1024, .f32⟩ : BufTy).Contents (Elt F) → (⟨S16384x1024, .f32⟩ : BufTy).Contents (Elt F) → (⟨S16384x1024, .f32⟩ : BufTy).Contents (Elt F)),
    StableHlo.nullary main_cst_27 (constant S_ .f32 0x00000000#32),
    StableHlo.unary main_cst_27 main_v100 (broadcastInDim S8192x1024 ![] bcast_S_S8192x1024 : (⟨S_, .f32⟩ : BufTy).Contents (Elt F) → (⟨S8192x1024, .f32⟩ : BufTy).Contents (Elt F)),
    StableHlo.nullary main_c_28 (constantI S_ 32 0#32),
    StableHlo.unary main_c_28 main_v101 (broadcastInDim S16384 ![] bcast_S_S16384 : (⟨S_, .i32⟩ : BufTy).Contents (Elt F) → (⟨S16384, .i32⟩ : BufTy).Contents (Elt F)),
    StableHlo.binary main_v33 main_v101 main_v102 (cmpi .slt : (⟨S16384, .i32⟩ : BufTy).Contents (Elt F) → (⟨S16384, .i32⟩ : BufTy).Contents (Elt F) → (⟨S16384, .i1⟩ : BufTy).Contents (Elt F)),
    StableHlo.nullary main_c_29 (constantI S_ 32 8192#32),
    StableHlo.unary main_c_29 main_v103 (broadcastInDim S16384 ![] bcast_S_S16384 : (⟨S_, .i32⟩ : BufTy).Contents (Elt F) → (⟨S16384, .i32⟩ : BufTy).Contents (Elt F)),
    StableHlo.binary main_v33 main_v103 main_v104 (addi : (⟨S16384, .i32⟩ : BufTy).Contents (Elt F) → (⟨S16384, .i32⟩ : BufTy).Contents (Elt F) → (⟨S16384, .i32⟩ : BufTy).Contents (Elt F)),
    StableHlo.ternary main_v102 main_v104 main_v33 main_v105 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v105 main_v106 (broadcastInDim S16384x1 ![0] bcast_S16384_S16384x1_0 : (⟨S16384, .i32⟩ : BufTy).Contents (Elt F) → (⟨S16384x1, .i32⟩ : BufTy).Contents (Elt F)),
    StableHlo.ternary main_v100 main_v106 main_v99 main_v107 ((fun x i u => Host.scatterAdd scatter_S8192x1024_S16384x1_S16384x1024_1_0_0_1 x i u) : (⟨S8192x1024, .f32⟩ : BufTy).Contents (Elt F) → (⟨S16384x1, .i32⟩ : BufTy).Contents (Elt F) → (⟨S16384x1024, .f32⟩ : BufTy).Contents (Elt F) → (⟨S8192x1024, .f32⟩ : BufTy).Contents (Elt F)),
    StableHlo.reshape main_v107 main_v108 rfl shapeCasts_S8192x1024_S4x2048x1024,
    StableHlo.unary main_arg4 main_v109 (broadcastInDim S1x1x1024 ![2] bcast_S1024_S1x1x1024_2 : (⟨S1024, .f32⟩ : BufTy).Contents (Elt F) → (⟨S1x1x1024, .f32⟩ : BufTy).Contents (Elt F)),
    StableHlo.unary main_v109 main_v110 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v108 main_v110 main_v111 (addf : (⟨S4x2048x1024, .f32⟩ : BufTy).Contents (Elt F) → (⟨S4x2048x1024, .f32⟩ : BufTy).Contents (Elt F) → (⟨S4x2048x1024, .f32⟩ : BufTy).Contents (Elt F)) ]
theorem tailOps_sub : (tailOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.reshape_bufs_sub .., StableHlo.unary_bufs_sub .., StableHlo.unary_bufs_sub .., StableHlo.binary_bufs_sub ..⟩

end Cert.ReferenceIdeal.Hand

end
-- ==== Proof.RefRun.lean ====
/-
  The reference's @main is a straight line of host operations. Each of its three windows is the chain of its
  items, a called function's body being the callee's operations over that call's buffers; run one after the
  other the items are the routing-and-gather list, then the two products with the tanh gate between them,
  then the weighted scatter back to tokens. So every weakly fair execution terminates, and each buffer ends at
  the fold of those operations over what the launch put there.
-/
import proofs.«173105_j58944131170535_1_alg».proof.Proof.RefOps
import Idealize.ShloMosaic.Lib.Pipeline.Regions

-- the scoped-reference filters are decided over every reference of the program
set_option maxRecDepth 4096

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- All of @main's operations in order: head, then middle, then tail. -/
abbrev allOps : List (HloOp τ sig (Elt F)) := headOps ++ (midOps ++ tailOps)

/-- The first window is the chain of its eleven items, the last in tail position. -/
theorem part0_chain (c : Dev nD) : main_part0 (F := F) c = (Pipeline.chainK
    [ seq w0_0, seq w0_1, seq w0_2, seq w0_3, seq w0_4, seq w0_5, seq w0_6, seq w0_7, seq w0_8, seq w0_9 ]
    (seq w0_10) : Prog (TpuEff nD τ sig (Elt F) (Pipeline.Sig Λ₀ (Fin 0) fun p => (pcfgs (F := F) p).Adm) .tc) PUnit) := by
  chain_rfl

/-- The second window is one stretch of sixty operations. -/
theorem part1_chain (c : Dev nD) : main_part1 (F := F) c = (Pipeline.chainK [] (seq w1_0)
    : Prog (TpuEff nD τ sig (Elt F) (Pipeline.Sig Λ₀ (Fin 0) fun p => (pcfgs (F := F) p).Adm) .tc) PUnit) := by
  chain_rfl

/-- The last window is one stretch, closed by the return. -/
theorem part2_chain (c : Dev nD) : main_part2 (F := F) c = (Pipeline.chain [ seq w2_0 ]
    : Prog (TpuEff nD τ sig (Elt F) (Pipeline.Sig Λ₀ (Fin 0) fun p => (pcfgs (F := F) p).Adm) .tc) PUnit) := by
  chain_rfl

/-- @main is the straight line of all its operations: the windows' chains joined at the two boundaries, and a
    chain of stretches is the one stretch of their concatenation. -/
theorem main_eq (c : Dev nD) : main (F := F) c = seq allOps := by
  show (main_part0 (F := F) c >>= fun _ => main_part1 (F := F) c >>= fun _ => main_part2 (F := F) c) = _
  rewrite [part2_chain, part1_chain, Pipeline.chainK_bind_chain, part0_chain, Pipeline.chainK_bind_chain]
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem allOps_sub : (allOps : List (HloOp τ sig (Elt F))).Forall fun op => op.bufs ⊆ tcRefs τ sig :=
  List.forall_iff_forall_mem.mpr fun op h => (List.mem_append.mp h).elim
    (List.forall_iff_forall_mem.mp headOps_sub op)
    fun h => (List.mem_append.mp h).elim (List.forall_iff_forall_mem.mp midOps_sub op)
      (List.forall_iff_forall_mem.mp tailOps_sub op)

theorem headOps_fresh : (headOps : List (HloOp τ sig (Elt F))).Forall fun op => op.fresh = ∅ := by
  simp only [List.Forall]; repeat' constructor
theorem midOps_fresh : (midOps : List (HloOp τ sig (Elt F))).Forall fun op => op.fresh = ∅ := by
  simp only [List.Forall]; repeat' constructor
theorem tailOps_fresh : (tailOps : List (HloOp τ sig (Elt F))).Forall fun op => op.fresh = ∅ := by
  simp only [List.Forall]; repeat' constructor

/-- No operation allocates: each determines its results. -/
theorem allOps_fresh : ∀ op ∈ (allOps : List (HloOp τ sig (Elt F))), op.fresh = ∅ := fun op h =>
  (List.mem_append.mp h).elim (List.forall_iff_forall_mem.mp headOps_fresh op)
    fun h => (List.mem_append.mp h).elim (List.forall_iff_forall_mem.mp midOps_fresh op)
      (List.forall_iff_forall_mem.mp tailOps_fresh op)

/-- From any memory with zero counters every weakly fair execution of @main terminates, and every buffer of
    every core ends at the fold of the operations over the core's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after allOps (launchContents m c) (b : DevRef τ sig) :=
  run_seq scopedRefs_eq scopedSems_eq defs main (fun _ => allOps) main_eq (fun _ => allOps_sub) m ρ
    (fun _ => allOps_fresh)

end Cert.ReferenceIdeal.Hand

end
-- ==== Proof.Spec.lean ====
/-
  One expert's two-layer unit as a function of three arrays. For expert e, row r and output column j,
      out x w₁ w₂ (e, r, j) = Σ_f gate (Σ_k x(e, r, k) · w₁(e, k, f)) · w₂(e, f, j),
  where gate h = h · (½ · (1 + tanh (c₂ · (h + c₁ · h³)))) and c₁, c₂ are the two f32 words that both programs carry
  (they are never evaluated: the same word denotes the same extended real on both sides). The cube h³ is a product of
  three equal factors; the product of extended reals is associative, so (h · h) · h and h · (h · h) are one number.
  No distributive law and no cancellation is used anywhere, so nothing here needs the inputs to be finite.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- The tanh gate applied to a pre-activation, the cube grouped from the left. -/
def gate (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * h * h)))))

/-- Grouping the cube from the right gives the same gate: multiplication of extended reals is associative. -/
theorem gate_right (h : EReal) :
    h * (Ideal.ofBits .f32 0x3F000000#32 * (Ideal.ofBits .f32 0x3F800000#32
      + Ideal.tanh (Ideal.ofBits .f32 0x3F4C422A#32 * (h + Ideal.ofBits .f32 0x3D372713#32 * (h * (h * h))))))
      = gate h := by
  unfold gate
  rw [mul_assoc h h h]

abbrev SX : Shape := ⟨3, ![8, 2048, 1024]⟩
abbrev SW1 : Shape := ⟨3, ![8, 1024, 4096]⟩
abbrev SW2 : Shape := ⟨3, ![8, 4096, 1024]⟩

/-- Row r of expert e against column f of its first weight matrix. -/
def hid (x : SX.Idx → EReal) (w1 : SW1.Idx → EReal) (e : Fin 8) (r : Fin 2048) (f : Fin 4096) : EReal :=
  ∑ k : Fin 1024, x (ix3 e r k) * w1 (ix3 e k f)

/-- The unit's output at expert e, row r, column j. -/
def outAt (x : SX.Idx → EReal) (w1 : SW1.Idx → EReal) (w2 : SW2.Idx → EReal) (e : Fin 8) (r : Fin 2048) (j : Fin 1024) : EReal :=
  ∑ f : Fin 4096, gate (hid x w1 e r f) * w2 (ix3 e f j)

/-- The whole output array. -/
def out (x : SX.Idx → EReal) (w1 : SW1.Idx → EReal) (w2 : SW2.Idx → EReal) : SX.Idx → EReal :=
  fun i => outAt x w1 w2 (i 0) (i 1) (i 2)

theorem out_ix3 (x : SX.Idx → EReal) (w1 : SW1.Idx → EReal) (w2 : SW2.Idx → EReal) (e : Fin 8) (r : Fin 2048) (j : Fin 1024) :
    out x w1 w2 (ix3 e r j) = outAt x w1 w2 e r j := rfl

abbrev BX : Shape := ⟨3, ![1, 128, 1024]⟩
abbrev BW1 : Shape := ⟨3, ![1, 1024, 4096]⟩
abbrev BW2 : Shape := ⟨3, ![1, 4096, 1024]⟩

/-- The same unit on one block of 128 rows of one expert, with that expert's two matrices as blocks of their own:
    local row p, column q. -/
def blockAt (xb : BX.Idx → EReal) (w1b : BW1.Idx → EReal) (w2b : BW2.Idx → EReal) (p : Fin 128) (q : Fin 1024) : EReal :=
  ∑ f : Fin 4096, gate (∑ k : Fin 1024, xb (ix3 (0 : Fin 1) p k) * w1b (ix3 (0 : Fin 1) k f)) * w2b (ix3 (0 : Fin 1) f q)

/-- A block of rows read out of the arrays computes those rows of the whole output: if the block's entries are the
    arrays' entries of expert e at rows 128·c + p, the block's unit at (p, q) is the array's at (e, 128·c + p, q). -/
theorem blockAt_eq_outAt (x : SX.Idx → EReal) (w1 : SW1.Idx → EReal) (w2 : SW2.Idx → EReal)
    (xb : BX.Idx → EReal) (w1b : BW1.Idx → EReal) (w2b : BW2.Idx → EReal) (e : Fin 8) (r : Fin 2048) (p : Fin 128) (q : Fin 1024)
    (hx : ∀ k : Fin 1024, xb (ix3 (0 : Fin 1) p k) = x (ix3 e r k))
    (hw1 : ∀ (k : Fin 1024) (f : Fin 4096), w1b (ix3 (0 : Fin 1) k f) = w1 (ix3 e k f))
    (hw2 : ∀ f : Fin 4096, w2b (ix3 (0 : Fin 1) f q) = w2 (ix3 e f q)) :
    blockAt xb w1b w2b p q = outAt x w1 w2 e r q := by
  unfold blockAt outAt hid
  refine Finset.sum_congr rfl fun f _ => ?_
  rw [hw2 f]
  refine congrArg (fun h => gate h * w2 (ix3 e f q)) ?_
  exact Finset.sum_congr rfl fun k _ => by rw [hx k, hw1 k f]

end Cert.Mlp

end
-- ==== Proof.RefMid.lean ====
/-
  The reference's middle stretch is the two-layer unit. Its first product contracts the last axis of the gathered rows
  with the middle axis of the first weights, expert by expert (the leading axis is a batch axis of both operands), so
  at (e, r, f) it is Σ_k x(e, r, k) · w₁(e, k, f); the eleven pointwise operations after it apply the tanh gate, the
  cube grouped from the left; the second product contracts the hidden axis against the second weights the same way.
  Read at one index the whole stretch is therefore the specification's output at that index.
-/
import proofs.«173105_j58944131170535_1_alg».proof.Proof.RefOps
import proofs.«173105_j58944131170535_1_alg».proof.Proof.Spec
import Idealize.ShloMosaic.PureOps.Ideal.Laws
import Idealize.ShloMosaic.Lib.ValueIdx

noncomputable section

open scoped BigOperators

namespace Cert.ReferenceIdeal.Mid

open Cert.ReferenceIdeal Cert.ReferenceIdeal.Gen Cert.ReferenceIdeal.Hand
open Idealize.ShloMosaic Idealize.ShloMosaic.ValueIdx Idealize.ShloMosaic.StableHlo

/-- The first product's dimension numbers: batch axis 0 of both, contracting axis 2 against axis 1. -/
abbrev D1 : DotDims S8x2048x1024 S8x1024x4096 S8x2048x4096 := dot_S8x2048x1024_S8x1024x4096_S8x2048x4096_2_1_1_2_0_0
/-- The second product's: the same pattern over the hidden axis. -/
abbrev D2 : DotDims S8x2048x4096 S8x4096x1024 S8x2048x1024 := dot_S8x2048x4096_S8x4096x1024_S8x2048x1024_2_1_1_2_0_0

/-- A contraction index of the first product is its one coordinate, below 1024. -/
def e1 : D1.contr.Idx ≃ Fin 1024 := contrEquiv1 D1 1024 (by decide) (by decide)
/-- A contraction index of the second product is its one coordinate, below 4096. -/
def e2 : D2.contr.Idx ≃ Fin 4096 := contrEquiv1 D2 4096 (by decide) (by decide)

/-- At output (e, r, f) and contraction position k the first product reads the rows at (e, r, k) -/
theorem D1_lhs (e : Fin 8) (r : Fin 2048) (f : Fin 4096) (k : Fin 1024) :
    D1.lhsIdx (ix3 e r f) (e1.symm k) = ix3 e r k := by
  funext a; apply Fin.ext
  match a with
  | ⟨0, _⟩ => rfl
  | ⟨1, _⟩ => rfl
  | ⟨2, _⟩ => exact (DotDims.lhsIdx_val_of_single D1 (cl := 2) rfl _ _).trans (contrEquiv1_symm_val D1 1024 _ _ k)

/-- and the first weights at (e, k, f). -/
theorem D1_rhs (e : Fin 8) (r : Fin 2048) (f : Fin 4096) (k : Fin 1024) :
    D1.rhsIdx (ix3 e r f) (e1.symm k) = ix3 e k f := by
  funext a; apply Fin.ext
  match a with
  | ⟨0, _⟩ => rfl
  | ⟨1, _⟩ => exact (DotDims.rhsIdx_val_of_single D1 (cr := 1) rfl _ _).trans (contrEquiv1_symm_val D1 1024 _ _ k)
  | ⟨2, _⟩ => rfl

/-- At output (e, r, j) and contraction position f the second product reads the gated hidden rows at (e, r, f) -/
theorem D2_lhs (e : Fin 8) (r : Fin 2048) (j : Fin 1024) (f : Fin 4096) :
    D2.lhsIdx (ix3 e r j) (e2.symm f) = ix3 e r f := by
  funext a; apply Fin.ext
  match a with
  | ⟨0, _⟩ => rfl
  | ⟨1, _⟩ => rfl
  | ⟨2, _⟩ => exact (DotDims.lhsIdx_val_of_single D2 (cl := 2) rfl _ _).trans (contrEquiv1_symm_val D2 4096 _ _ f)

/-- and the second weights at (e, f, j). -/
theorem D2_rhs (e : Fin 8) (r : Fin 2048) (j : Fin 1024) (f : Fin 4096) :
    D2.rhsIdx (ix3 e r j) (e2.symm f) = ix3 e f j := by
  funext a; apply Fin.ext
  match a with
  | ⟨0, _⟩ => rfl
  | ⟨1, _⟩ => exact (DotDims.rhsIdx_val_of_single D2 (cr := 1) rfl _ _).trans (contrEquiv1_symm_val D2 4096 _ _ f)
  | ⟨2, _⟩ => rfl

/-- The first product at (e, r, f) is the specification's pre-activation. -/
theorem dot1_apply (x : FVec Ideal S8x2048x1024 .f32) (w1 : FVec Ideal S8x1024x4096 .f32) (e : Fin 8) (r : Fin 2048) (f : Fin 4096) :
    FloatOps.dotGeneral D1 none .single x w1 (ix3 e r f) = Cert.Mlp.hid x w1 e r f := by
  rw [Ideal.dotGeneral_apply, ← Equiv.sum_comp e1.symm]
  unfold Cert.Mlp.hid
  exact Finset.sum_congr rfl fun k _ => by rw [D1_lhs, D1_rhs]

/-- The second product of any hidden array, at (e, r, j): the sum over the hidden axis. -/
theorem dot2_apply (g : FVec Ideal S8x2048x4096 .f32) (w2 : FVec Ideal S8x4096x1024 .f32) (e : Fin 8) (r : Fin 2048) (j : Fin 1024) :
    FloatOps.dotGeneral D2 none .single g w2 (ix3 e r j) = ∑ f : Fin 4096, g (ix3 e r f) * w2 (ix3 e f j) := by
  rw [Ideal.dotGeneral_apply, ← Equiv.sum_comp e2.symm]
  exact Finset.sum_congr rfl fun f _ => by rw [D2_lhs, D2_rhs]

/-- The printed middle term of any three arrays is the specification's output of them. -/
theorem mid_term (x : FVec Ideal S8x2048x1024 .f32) (w1 : FVec Ideal S8x1024x4096 .f32) (w2 : FVec Ideal S8x4096x1024 .f32) :
    Host.dotGeneral (F := Ideal) D2 none
      (mulf (Host.dotGeneral (F := Ideal) D1 none x w1)
        (mulf (broadcastInDim S8x2048x4096 ![] bcast_S_S8x2048x4096 (constant (F := Ideal) S_ .f32 0x3F000000#32))
          (addf (broadcastInDim S8x2048x4096 ![] bcast_S_S8x2048x4096 (constant (F := Ideal) S_ .f32 0x3F800000#32))
            (Host.tanh (mulf (broadcastInDim S8x2048x4096 ![] bcast_S_S8x2048x4096 (constant (F := Ideal) S_ .f32 0x3F4C422A#32))
              (addf (Host.dotGeneral (F := Ideal) D1 none x w1)
                (mulf (broadcastInDim S8x2048x4096 ![] bcast_S_S8x2048x4096 (constant (F := Ideal) S_ .f32 0x3D372713#32))
                  (mulf (mulf (Host.dotGeneral (F := Ideal) D1 none x w1) (Host.dotGeneral (F := Ideal) D1 none x w1))
                    (Host.dotGeneral (F := Ideal) D1 none x w1)))))))))
      w2
      = Cert.Mlp.out x w1 w2 := by
  funext i
  obtain ⟨e, r, j, rfl⟩ : ∃ (e : Fin 8) (r : Fin 2048) (j : Fin 1024), i = ix3 e r j := ⟨i 0, i 1, i 2, eq_ix3 i⟩
  rw [Cert.Mlp.out_ix3]
  unfold Cert.Mlp.outAt
  refine (dot2_apply _ w2 e r j).trans (Finset.sum_congr rfl fun f _ => ?_)
  refine congrArg (· * w2 (ix3 e f j)) ?_
  have hH := dot1_apply x w1 e r f
  show FloatOps.dotGeneral D1 none .single x w1 (ix3 e r f) * _ = _
  unfold Cert.Mlp.gate
  rw [← hH]
  rfl

end Cert.ReferenceIdeal.Mid

end
-- ==== Proof.BridgeBase.lean ====
/-
  The kernel's program and the reference apply the same host operations, in the same order, to the same
  arguments before the grouped products and after them: the reshape of the three routed arguments, the stable
  sort of the expert ids, the histogram and its exclusive prefix sums, each assignment's rank within its expert,
  the gather of the token rows into per-expert rows — and, afterwards, the weighted scatter back to tokens.
  This module names the kernel's operations before its region as one list, records that running two lists one
  after the other is running their concatenation, and fixes the one step every comparison below starts with:
  unroll both folds into compositions of the operations over the argument buffers.
-/
import proofs.«173105_j58944131170535_1_alg».proof.Proof.Gen.KernelIdeal.Launch
import proofs.«173105_j58944131170535_1_alg».proof.Proof.RefOps
import Idealize.ShloMosaic.PureOps.Ideal

set_option maxRecDepth 16384

noncomputable section

namespace Cert.Bridge

open Idealize.ShloMosaic Idealize.ShloMosaic.StableHlo

/-- The kernel program's host operations before its region, in order. -/
abbrev headK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, Cert.KernelIdeal.Gen.hostOps0_8,
    Cert.KernelIdeal.Gen.hostOps0_9, Cert.KernelIdeal.Gen.hostOps0_10]

/-- Contents after two lists in turn are contents after their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Two index columns side by side, as the kernel's program spells it: one definition of the two columns, so that each
    column stands as an argument of its own. -/
def catK (a b : (⟨Cert.KernelIdeal.S16384x1, .i32⟩ : BufTy).Contents (Elt Ideal)) : (⟨Cert.KernelIdeal.S16384x2, .i32⟩ : BufTy).Contents (Elt Ideal) :=
  concatenate Cert.KernelIdeal.S16384x2 1 [⟨Cert.KernelIdeal.S16384x1, a⟩, ⟨Cert.KernelIdeal.S16384x1, b⟩] Cert.KernelIdeal.Gen.concatenates_S16384x1_S16384x1_S16384x2_d1

theorem catK_eq (a b : (⟨Cert.KernelIdeal.S16384x1, .i32⟩ : BufTy).Contents (Elt Ideal)) :
    concatenate Cert.KernelIdeal.S16384x2 1 [⟨Cert.KernelIdeal.S16384x1, a⟩, ⟨Cert.KernelIdeal.S16384x1, b⟩] Cert.KernelIdeal.Gen.concatenates_S16384x1_S16384x1_S16384x2_d1
      = catK a b := rfl

/-- The same as the reference spells it. -/
def catR (a b : (⟨Cert.ReferenceIdeal.S16384x1, .i32⟩ : BufTy).Contents (Elt Ideal)) : (⟨Cert.ReferenceIdeal.S16384x2, .i32⟩ : BufTy).Contents (Elt Ideal) :=
  concatenate Cert.ReferenceIdeal.S16384x2 1 [⟨Cert.ReferenceIdeal.S16384x1, a⟩, ⟨Cert.ReferenceIdeal.S16384x1, b⟩] Cert.ReferenceIdeal.Gen.concatenates_S16384x1_S16384x1_S16384x2_d1

theorem catR_eq (a b : (⟨Cert.ReferenceIdeal.S16384x1, .i32⟩ : BufTy).Contents (Elt Ideal)) :
    concatenate Cert.ReferenceIdeal.S16384x2 1 [⟨Cert.ReferenceIdeal.S16384x1, a⟩, ⟨Cert.ReferenceIdeal.S16384x1, b⟩] Cert.ReferenceIdeal.Gen.concatenates_S16384x1_S16384x1_S16384x2_d1
      = catR a b := rfl

/-- A fold read at a buffer is the composition of the functions of the operations that lead to that buffer, over the
    contents of the argument buffers: at the buffer an operation writes, its result is its function of its operands'
    contents; at any other buffer the contents are unchanged; and two columns side by side are read column by column. -/
macro "unroll_folds" : tactic => `(tactic| (
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catK_eq, catR_eq]))

/-- The same with the kernel's list first spelt out operation by operation. -/
macro "unroll_heads" : tactic => `(tactic| (
  simp only [headK, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, Cert.KernelIdeal.Gen.hostOps0_8,
    Cert.KernelIdeal.Gen.hostOps0_9, Cert.KernelIdeal.Gen.hostOps0_10,
    List.flatten_cons, List.flatten_nil, List.append_nil, List.cons_append, List.nil_append]
  unroll_folds))

end Cert.Bridge

end
-- ==== Proof.RefSide.lean ====
/-
  The reference's result, read in three steps. Its operations are the head, then the middle, then the tail, so the
  contents after all of them are the tail's fold over the middle's over the head's. The middle writes only its own
  nineteen buffers: it leaves the routing values and the arguments as the head left them, and its last buffer is the
  two-layer unit of the head's gathered rows and the two weight arguments. No operation writes an argument, so every
  argument ends as launched.
-/
import proofs.«173105_j58944131170535_1_alg».proof.Proof.RefRun
import proofs.«173105_j58944131170535_1_alg».proof.Proof.RefMid
import proofs.«173105_j58944131170535_1_alg».proof.Proof.BridgeBase
import proofs.«173105_j58944131170535_1_alg».proof.Defs
import proofs.«173105_j58944131170535_1_alg».proof.Proof.Gen.Pre_finite_inputs

set_option maxRecDepth 16384

noncomputable section

namespace Cert.ReferenceIdeal.Side

open Cert.ReferenceIdeal Cert.ReferenceIdeal.Gen Cert.ReferenceIdeal.Hand
open Idealize.ShloMosaic Idealize.ShloMosaic.TcCoe Idealize.ShloMosaic.StableHlo Idealize.SL.Sem

variable (M : Valuation τ sig (Elt Ideal))

/-- All the operations in turn: head, middle, tail. -/
theorem all_split (b : DevRef τ sig) : after allOps M b = after tailOps (after midOps (after headOps M)) b := by
  show after (headOps ++ (midOps ++ tailOps)) M b = _
  rw [Cert.Bridge.after_append, Cert.Bridge.after_append]

/-- The middle's last buffer is the unit of the rows, the first weights and the second weights it starts from. -/
theorem mid_out (V : Valuation τ sig (Elt Ideal)) :
    after midOps V (Proc.devRef .tc main_v73)
      = Cert.Mlp.out (V (Proc.devRef .tc main_v58)) (V (Proc.devRef .tc main_arg2)) (V (Proc.devRef .tc main_arg3)) := by
  after_results_simp
  exact Cert.ReferenceIdeal.Mid.mid_term (V (Proc.devRef .tc main_v58)) (V (Proc.devRef .tc main_arg2)) (V (Proc.devRef .tc main_arg3))

/-! The middle leaves the tail's other inputs alone. -/
theorem mid_v10 (V : Valuation τ sig (Elt Ideal)) : after midOps V (Proc.devRef .tc main_v10) = V (Proc.devRef .tc main_v10) := by after_results
theorem mid_v35 (V : Valuation τ sig (Elt Ideal)) : after midOps V (Proc.devRef .tc main_v35) = V (Proc.devRef .tc main_v35) := by after_results
theorem mid_v3 (V : Valuation τ sig (Elt Ideal)) : after midOps V (Proc.devRef .tc main_v3) = V (Proc.devRef .tc main_v3) := by after_results
theorem mid_v2 (V : Valuation τ sig (Elt Ideal)) : after midOps V (Proc.devRef .tc main_v2) = V (Proc.devRef .tc main_v2) := by after_results
theorem mid_v32 (V : Valuation τ sig (Elt Ideal)) : after midOps V (Proc.devRef .tc main_v32) = V (Proc.devRef .tc main_v32) := by after_results
theorem mid_v33 (V : Valuation τ sig (Elt Ideal)) : after midOps V (Proc.devRef .tc main_v33) = V (Proc.devRef .tc main_v33) := by after_results
theorem mid_arg4 (V : Valuation τ sig (Elt Ideal)) : after midOps V (Proc.devRef .tc main_arg4) = V (Proc.devRef .tc main_arg4) := by after_results

/-! The head leaves the weights and the bias alone. -/
theorem head_arg2 : after headOps M (Proc.devRef .tc main_arg2) = M (Proc.devRef .tc main_arg2) := by after_results_simp
theorem head_arg3 : after headOps M (Proc.devRef .tc main_arg3) = M (Proc.devRef .tc main_arg3) := by after_results_simp
theorem head_arg4 : after headOps M (Proc.devRef .tc main_arg4) = M (Proc.devRef .tc main_arg4) := by after_results_simp

/-! No operation writes an argument. -/
theorem kept_arg0 : after allOps M (Proc.devRef .tc main_arg0) = M (Proc.devRef .tc main_arg0) := by rw [all_split]; after_results_simp
theorem kept_arg1 : after allOps M (Proc.devRef .tc main_arg1) = M (Proc.devRef .tc main_arg1) := by rw [all_split]; after_results_simp
theorem kept_arg2 : after allOps M (Proc.devRef .tc main_arg2) = M (Proc.devRef .tc main_arg2) := by rw [all_split]; after_results_simp
theorem kept_arg3 : after allOps M (Proc.devRef .tc main_arg3) = M (Proc.devRef .tc main_arg3) := by rw [all_split]; after_results_simp
theorem kept_arg4 : after allOps M (Proc.devRef .tc main_arg4) = M (Proc.devRef .tc main_arg4) := by rw [all_split]; after_results_simp
theorem kept_arg5 : after allOps M (Proc.devRef .tc main_arg5) = M (Proc.devRef .tc main_arg5) := by rw [all_split]; after_results_simp

/-- The reference runs, faults nowhere, and ends with its arguments as launched. -/
theorem frame : Cert.frame_ReferenceIdeal := fun m ρ _ =>
  (θ_run defs _ _).mono (fun _ h c =>
    ⟨(h c main_arg0).trans (kept_arg0 (launchContents m c)), (h c main_arg1).trans (kept_arg1 (launchContents m c)),
     (h c main_arg2).trans (kept_arg2 (launchContents m c)), (h c main_arg3).trans (kept_arg3 (launchContents m c)),
     (h c main_arg4).trans (kept_arg4 (launchContents m c)), (h c main_arg5).trans (kept_arg5 (launchContents m c))⟩)
    (run_all (F := Ideal) m ρ)

end Cert.ReferenceIdeal.Side

end
-- ==== Proof.KerIdx.lean ====
/-
  The grid has 8 × 16 points; point t serves expert t / 16 and row tile t mod 16. The printed index maps say so: every
  window's leading block index is the expert, the rows' and the output's second block index is the row tile, and every
  other block index is zero.
-/
import proofs.«173105_j58944131170535_1_alg».proof.Proof.Gen.KernelIdeal.Frame
import Idealize.ShloMosaic.Lib.ValueIdx

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0, 0] : Fin 3 → Nat) = fun _ => 0 := funext fun a => by fin_cases a <;> rfl

/-- The printed index maps over the grid: every window follows the expert t / 16 on its leading axis; the rows' and
    the output's windows follow the row tile t mod 16 on their second axis; every other block index is zero. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0 :=
  (by decide +kernel : ∀ t : Fin grid0.N, _)

end Cert.KernelIdeal.Rows

end
-- ==== Proof.KerBlocks.lean ====
/-
  What each input window's block is, as a way of reading an array. At grid point t the rows' window reads any array
  of the rows' shape at expert t / 16, rows 128 · (t mod 16) + local row, the same column; each weight window reads
  any array of its shape at expert t / 16, the same row and column: that expert's whole matrix.
-/
import proofs.«173105_j58944131170535_1_alg».proof.Proof.KerIdx

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

/-- The rows' block at point t, read from an array f: entry y is f at expert t / 16, row 128 · (t mod 16) + y₁, column y₂. -/
theorem xread (t : Fin cfg0.N) (f : S8x2048x1024.Idx → Elt Ideal .bf16) (y : S1x128x1024.Idx) (k : S8x2048x1024.Idx)
    (h0 : (k 0).val = t.val / 16) (h1 : (k 1).val = 128 * (t.val % 16) + (y 1).val) (h2 : (k 2).val = (y 2).val) :
    (((cfg0.win 0).blk t).view.read (Elt Ideal) f : Vec Ideal S1x128x1024 .bf16) y = f k := by
  obtain ⟨a0, a1, a2, -⟩ := idx_facts t
  rw [View.read_apply]
  show f _ = f _
  refine congrArg f ?_
  funext a
  apply Fin.ext
  match a with
  | ⟨0, _⟩ => show win0_0.index t 0 * 1 + 1 * (y 0).val = (k 0).val; have hy : (y 0).val < 1 := (y 0).isLt; omega
  | ⟨1, _⟩ => show win0_0.index t 1 * 128 + 1 * (y 1).val = (k 1).val; omega
  | ⟨2, _⟩ => show win0_0.index t 2 * 1024 + 1 * (y 2).val = (k 2).val; omega

/-- The first weights' block at point t, read from an array f: expert t / 16's whole matrix. -/
theorem w1read (t : Fin cfg0.N) (f : S8x1024x4096.Idx → Elt Ideal .bf16) (y : S1x1024x4096.Idx) (k : S8x1024x4096.Idx)
    (h0 : (k 0).val = t.val / 16) (h1 : (k 1).val = (y 1).val) (h2 : (k 2).val = (y 2).val) :
    (((cfg0.win 1).blk t).view.read (Elt Ideal) f : Vec Ideal S1x1024x4096 .bf16) y = f k := by
  obtain ⟨-, -, -, a0, a1, a2, -⟩ := idx_facts t
  rw [View.read_apply]
  show f _ = f _
  refine congrArg f ?_
  funext a
  apply Fin.ext
  match a with
  | ⟨0, _⟩ => show win0_1.index t 0 * 1 + 1 * (y 0).val = (k 0).val; have hy : (y 0).val < 1 := (y 0).isLt; omega
  | ⟨1, _⟩ => show win0_1.index t 1 * 1024 + 1 * (y 1).val = (k 1).val; omega
  | ⟨2, _⟩ => show win0_1.index t 2 * 4096 + 1 * (y 2).val = (k 2).val; omega

/-- The second weights' block at point t, read from an array f: expert t / 16's whole matrix. -/
theorem w2read (t : Fin cfg0.N) (f : S8x4096x1024.Idx → Elt Ideal .bf16) (y : S1x4096x1024.Idx) (k : S8x4096x1024.Idx)
    (h0 : (k 0).val = t.val / 16) (h1 : (k 1).val = (y 1).val) (h2 : (k 2).val = (y 2).val) :
    (((cfg0.win 2).blk t).view.read (Elt Ideal) f : Vec Ideal S1x4096x1024 .bf16) y = f k := by
  obtain ⟨-, -, -, -, -, -, a0, a1, a2, -⟩ := idx_facts t
  rw [View.read_apply]
  show f _ = f _
  refine congrArg f ?_
  funext a
  apply Fin.ext
  match a with
  | ⟨0, _⟩ => show win0_2.index t 0 * 1 + 1 * (y 0).val = (k 0).val; have hy : (y 0).val < 1 := (y 0).isLt; omega
  | ⟨1, _⟩ => show win0_2.index t 1 * 4096 + 1 * (y 1).val = (k 1).val; omega
  | ⟨2, _⟩ => show win0_2.index t 2 * 1024 + 1 * (y 2).val = (k 2).val; omega

end Cert.KernelIdeal.Rows

end
-- ==== Proof.KerPayload.lean ====
/-
  What the kernel body stores, read at one entry of its output block. The body loads a block of 128 rows of one
  expert and that expert's two weight matrices (each with a leading axis of extent one, which two casts drop), multiplies
  rows by the first matrix into a zero accumulator, applies the tanh gate with the cube grouped from the right, rounds
  to the narrower format (the identity on extended reals), multiplies by the second matrix into a zero accumulator,
  and puts the leading unit axis back. A product into a zero accumulator is the plain sum over the contracted axis,
  so at local row p and column q the stored value is the specification's unit on the block.
-/
import proofs.«173105_j58944131170535_1_alg».proof.Proof.Gen.KernelIdeal.Skeleton
import proofs.«173105_j58944131170535_1_alg».proof.Proof.Spec
import Idealize.ShloMosaic.PureOps.Ideal.Laws
import Idealize.ShloMosaic.Lib.ValueIdx
import Idealize.ShloMosaic.Lib.ValueLayout

noncomputable section

open scoped BigOperators

namespace Cert.KernelIdeal.Payload

open Cert.KernelIdeal Cert.KernelIdeal.Gen
open Idealize.ShloMosaic Idealize.ShloMosaic.ValueIdx

/-- The first product's dimension numbers: rows by columns, one contracted axis of extent 1024. -/
abbrev K1 : DotDims S128x1024 S1024x4096 S128x4096 := dot_S128x1024_S1024x4096_S128x4096_1_0_0_1_n_n
/-- The second product's: one contracted axis of extent 4096. -/
abbrev K2 : DotDims S128x4096 S4096x1024 S128x1024 := dot_S128x4096_S4096x1024_S128x1024_1_0_0_1_n_n

def k1 : K1.contr.Idx ≃ Fin 1024 := contrEquiv1 K1 1024 (by decide) (by decide)
def k2 : K2.contr.Idx ≃ Fin 4096 := contrEquiv1 K2 4096 (by decide) (by decide)

theorem K1_lhs (p : Fin 128) (f : Fin 4096) (k : Fin 1024) : K1.lhsIdx (ix2 p f) (k1.symm k) = ix2 p k := by
  funext a; apply Fin.ext
  match a with
  | ⟨0, _⟩ => rfl
  | ⟨1, _⟩ => exact (DotDims.lhsIdx_val_of_single K1 (cl := 1) rfl _ _).trans (contrEquiv1_symm_val K1 1024 _ _ k)

theorem K1_rhs (p : Fin 128) (f : Fin 4096) (k : Fin 1024) : K1.rhsIdx (ix2 p f) (k1.symm k) = ix2 k f := by
  funext a; apply Fin.ext
  match a with
  | ⟨0, _⟩ => exact (DotDims.rhsIdx_val_of_single K1 (cr := 0) rfl _ _).trans (contrEquiv1_symm_val K1 1024 _ _ k)
  | ⟨1, _⟩ => rfl

theorem K2_lhs (p : Fin 128) (q : Fin 1024) (f : Fin 4096) : K2.lhsIdx (ix2 p q) (k2.symm f) = ix2 p f := by
  funext a; apply Fin.ext
  match a with
  | ⟨0, _⟩ => rfl
  | ⟨1, _⟩ => exact (DotDims.lhsIdx_val_of_single K2 (cl := 1) rfl _ _).trans (contrEquiv1_symm_val K2 4096 _ _ f)

theorem K2_rhs (p : Fin 128) (q : Fin 1024) (f : Fin 4096) : K2.rhsIdx (ix2 p q) (k2.symm f) = ix2 f q := by
  funext a; apply Fin.ext
  match a with
  | ⟨0, _⟩ => exact (DotDims.rhsIdx_val_of_single K2 (cr := 0) rfl _ _).trans (contrEquiv1_symm_val K2 4096 _ _ f)
  | ⟨1, _⟩ => rfl

/-- Rows times the first matrix, into zero: the sum over the 1024 contracted positions. -/
theorem mm1_apply (a : FVec Ideal S128x1024 .bf16) (b : FVec Ideal S1024x4096 .bf16) (p : Fin 128) (f : Fin 4096) :
    matmul K1 none a b (constant S128x4096 .f32 0x00000000#32) (ix2 p f) = ∑ k : Fin 1024, a (ix2 p k) * b (ix2 k f) := by
  show FloatOps.matmul K1 none a b (constant S128x4096 .f32 0x00000000#32) (ix2 p f) = _
  rw [Ideal.matmul_constant_zero_apply, ← Equiv.sum_comp k1.symm]
  exact Finset.sum_congr rfl fun k _ => by rw [K1_lhs, K1_rhs]

/-- Hidden rows times the second matrix, into zero: the sum over the 4096 contracted positions. -/
theorem mm2_apply (a : FVec Ideal S128x4096 .bf16) (b : FVec Ideal S4096x1024 .bf16) (p : Fin 128) (q : Fin 1024) :
    matmul K2 none a b (constant S128x1024 .f32 0x00000000#32) (ix2 p q) = ∑ f : Fin 4096, a (ix2 p f) * b (ix2 f q) := by
  show FloatOps.matmul K2 none a b (constant S128x1024 .f32 0x00000000#32) (ix2 p q) = _
  rw [Ideal.matmul_constant_zero_apply, ← Equiv.sum_comp k2.symm]
  exact Finset.sum_congr rfl fun f _ => by rw [K2_lhs, K2_rhs]

/-- The stored value at leading coordinate u, local row p, column q is the unit on the three loaded blocks. -/
theorem pay_apply (x0 : FVec Ideal S1x128x1024 .bf16) (x1 : FVec Ideal S1x1024x4096 .bf16) (x2 : FVec Ideal S1x4096x1024 .bf16)
    (u : Fin 1) (p : Fin 128) (q : Fin 1024) :
    k0_pay1 (F := Ideal) x0 x1 x2 (ix3 u p q) = Cert.Mlp.blockAt x0 x1 x2 p q := by
  unfold k0_pay1
  refine (shapeCast_ab_1ab_apply _ _ u p q).trans ?_
  refine (mm2_apply _ _ p q).trans ?_
  unfold Cert.Mlp.blockAt
  refine Finset.sum_congr rfl fun f _ => ?_
  have h2 : shapeCast S4096x1024 x2 shapeCasts_S1x4096x1024_S4096x1024 (ix2 f q) = x2 (ix3 (0 : Fin 1) f q) :=
    shapeCast_1ab_ab_apply x2 _ f q
  have h6 : matmul K1 none (shapeCast S128x1024 x0 shapeCasts_S1x128x1024_S128x1024) (shapeCast S1024x4096 x1 shapeCasts_S1x1024x4096_S1024x4096)
        (constant S128x4096 .f32 0x00000000#32) (ix2 p f)
      = ∑ k : Fin 1024, x0 (ix3 (0 : Fin 1) p k) * x1 (ix3 (0 : Fin 1) k f) :=
    (mm1_apply _ _ p f).trans (Finset.sum_congr rfl fun k _ => by
      rw [shapeCast_1ab_ab_apply x0 _ p k, shapeCast_1ab_ab_apply x1 _ k f])
  refine congrArg₂ (· * ·) ?_ h2
  refine Eq.trans ?_ (congrArg Cert.Mlp.gate h6)
  exact Cert.Mlp.gate_right _

end Cert.KernelIdeal.Payload

end
-- ==== Proof.KerPoint.lean ====
/-
  One stored entry against one array entry, for any blocks and any arrays: when the loaded blocks hold the arrays'
  entries of one expert (the rows' block those of one tile of 128 rows), the value the body stores at a block entry is the
  two-layer unit of the arrays at the array index that block entry is written back to.
-/
import proofs.«173105_j58944131170535_1_alg».proof.Proof.KerPayload

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

/-- One stored entry against one array entry, over any blocks and arrays: if the loaded blocks are the arrays' entries of
    expert e (the rows' block those of rows 128 · cc + local row), then the stored value at block entry j is the unit of
    the arrays at any array index i that sits at expert e, row 128 · cc + j₁, column j₂. -/
theorem point_eq (X : S8x2048x1024.Idx → EReal) (W1 : S8x1024x4096.Idx → EReal) (W2 : S8x4096x1024.Idx → EReal)
    (x0 : FVec Ideal S1x128x1024 .bf16) (x1 : FVec Ideal S1x1024x4096 .bf16) (x2 : FVec Ideal S1x4096x1024 .bf16)
    (e cc : Nat) (j : S1x128x1024.Idx) (i : S8x2048x1024.Idx)
    (hx : ∀ (y : S1x128x1024.Idx) (k : S8x2048x1024.Idx), (k 0).val = e → (k 1).val = 128 * cc + (y 1).val → (k 2).val = (y 2).val → x0 y = X k)
    (hw1 : ∀ (y : S1x1024x4096.Idx) (k : S8x1024x4096.Idx), (k 0).val = e → (k 1).val = (y 1).val → (k 2).val = (y 2).val → x1 y = W1 k)
    (hw2 : ∀ (y : S1x4096x1024.Idx) (k : S8x4096x1024.Idx), (k 0).val = e → (k 1).val = (y 1).val → (k 2).val = (y 2).val → x2 y = W2 k)
    (hi0 : (i 0).val = e) (hi1 : (i 1).val = 128 * cc + (j 1).val) (hi2 : (i 2).val = (j 2).val) :
    k0_pay1 (F := Ideal) x0 x1 x2 j = Cert.Mlp.out X W1 W2 i := by
  obtain ⟨u, p, q, rfl⟩ : ∃ (u : Fin 1) (p : Fin 128) (q : Fin 1024), j = ix3 u p q := ⟨j 0, j 1, j 2, eq_ix3 j⟩
  obtain ⟨e', r, q', rfl⟩ : ∃ (e' : Fin 8) (r : Fin 2048) (q' : Fin 1024), i = ix3 e' r q' := ⟨i 0, i 1, i 2, eq_ix3 i⟩
  obtain rfl : q' = q := Fin.ext hi2
  refine (Cert.KernelIdeal.Payload.pay_apply x0 x1 x2 u p q').trans ?_
  refine (Cert.Mlp.blockAt_eq_outAt X W1 W2 x0 x1 x2 e' r p q' ?_ ?_ ?_).trans (Cert.Mlp.out_ix3 X W1 W2 e' r q').symm
  · exact fun k => hx (ix3 (0 : Fin 1) p k) (ix3 e' r k) hi0 hi1 rfl
  · exact fun k f => hw1 (ix3 (0 : Fin 1) k f) (ix3 e' k f) hi0 rfl rfl
  · exact fun f => hw2 (ix3 (0 : Fin 1) f q') (ix3 e' f q') hi0 rfl rfl

end Cert.KernelIdeal.Rows

end
-- ==== Proof.KerValue.lean ====
/-
  From blocks to the array. What point t writes back is the restriction to its block of one function of the three arrays
  the region finds — the two-layer unit — because the body stores the unit of what it loaded and what it loaded are
  those arrays' entries of the point's expert and row tile. The 128 blocks tile the output array, so after the last
  write-back the array is that function everywhere.
-/
import proofs.«173105_j58944131170535_1_alg».proof.Proof.KerBlocks
import proofs.«173105_j58944131170535_1_alg».proof.Proof.KerPoint
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What the write-back takes of a staged block, at entry j: the block's entry at j itself (the output's blocks are
    never cut short: they tile the array). -/
theorem cut_out (t : Fin cfg0.N) (P : S1x128x1024.Idx → EReal) (j : ((win0 3).xblock (grid0.coords t)).Idx) :
    (win0 3).cut (grid0.coords t) P j = P ((win0 3).xinj (grid0.coords t) j) := rfl

/-- Block t of an array G of the output's shape, at entry j: G at the array index entry j sits at. -/
theorem read_out (t : Fin cfg0.N) (G : S8x2048x1024.Idx → EReal) (j : ((win0 3).xblock (grid0.coords t)).Idx) :
    View.read (Elt Ideal) ((View.whole main_v62).slice ((win0 3).rect t)) G j
      = G (((View.whole main_v62).slice ((win0 3).rect t)).emb j) := rfl

set_option maxHeartbeats 1000000 in
/-- WHAT POINT t WRITES BACK is block t of the unit of the three arrays the region finds. -/
theorem flushed_eq (c : Dev nD) (t : Fin cfg0.N) :
    (dats m 0 c).flushed 3 t = ((cfg0.win 3).blk t).view.read (Elt Ideal)
      (Cert.Mlp.out (V m c (Pipeline.arrRef spec0 (0 : Fin cfg0.W))) (V m c (Pipeline.arrRef spec0 (1 : Fin cfg0.W))) (V m c (Pipeline.arrRef spec0 (2 : Fin cfg0.W)))) := by
  show (cfg0.win 3).cut (grid0.coords t) ((dats m 0 c).after 3 t) = _
  rw [after0_3]
  unfold out0_3
  rw [View.canon_unit_zero hz]
  simp only [View.ld_unit_zero (S := S1x128x1024) hz, View.ld_unit_zero (S := S1x1024x4096) hz, View.ld_unit_zero (S := S1x4096x1024) hz]
  funext j
  rw [cut_out t, read_out t]
  have e0 : iblk m c 0 t = ((cfg0.win 0).blk t).view.read (Elt Ideal) (V m c (Pipeline.arrRef spec0 (0 : Fin cfg0.W))) := by unfold iblk; rfl
  have e1 : iblk m c 1 t = ((cfg0.win 1).blk t).view.read (Elt Ideal) (V m c (Pipeline.arrRef spec0 (1 : Fin cfg0.W))) := by unfold iblk; rfl
  have e2 : iblk m c 2 t = ((cfg0.win 2).blk t).view.read (Elt Ideal) (V m c (Pipeline.arrRef spec0 (2 : Fin cfg0.W))) := by unfold iblk; rfl
  have hx : ∀ (y : S1x128x1024.Idx) (k : S8x2048x1024.Idx), (k 0).val = t.val / 16 → (k 1).val = 128 * (t.val % 16) + (y 1).val →
      (k 2).val = (y 2).val → (iblk m c 0 t : Vec Ideal S1x128x1024 .bf16) y = (V m c (Pipeline.arrRef spec0 (0 : Fin cfg0.W))) k :=
    fun y k h0 h1 h2 => (congrFun e0 y).trans (xread t (V m c (Pipeline.arrRef spec0 (0 : Fin cfg0.W))) y k h0 h1 h2)
  have hw1 : ∀ (y : S1x1024x4096.Idx) (k : S8x1024x4096.Idx), (k 0).val = t.val / 16 → (k 1).val = (y 1).val →
      (k 2).val = (y 2).val → (iblk m c 1 t : Vec Ideal S1x1024x4096 .bf16) y = (V m c (Pipeline.arrRef spec0 (1 : Fin cfg0.W))) k :=
    fun y k h0 h1 h2 => (congrFun e1 y).trans (w1read t (V m c (Pipeline.arrRef spec0 (1 : Fin cfg0.W))) y k h0 h1 h2)
  have hw2 : ∀ (y : S1x4096x1024.Idx) (k : S8x4096x1024.Idx), (k 0).val = t.val / 16 → (k 1).val = (y 1).val →
      (k 2).val = (y 2).val → (iblk m c 2 t : Vec Ideal S1x4096x1024 .bf16) y = (V m c (Pipeline.arrRef spec0 (2 : Fin cfg0.W))) k :=
    fun y k h0 h1 h2 => (congrFun e2 y).trans (w2read t (V m c (Pipeline.arrRef spec0 (2 : Fin cfg0.W))) y k h0 h1 h2)
  obtain ⟨-, -, -, -, -, -, -, -, -, b0, b1, b2⟩ := idx_facts t
  have hj0 : (j 0).val < 1 := (j 0).isLt
  exact point_eq (V m c (Pipeline.arrRef spec0 (0 : Fin cfg0.W))) (V m c (Pipeline.arrRef spec0 (1 : Fin cfg0.W))) (V m c (Pipeline.arrRef spec0 (2 : Fin cfg0.W))) (iblk m c 0 t) (iblk m c 1 t) (iblk m c 2 t) (t.val / 16) (t.val % 16)
    ((win0 3).xinj (grid0.coords t) j) (((View.whole main_v62).slice ((win0 3).rect t)).emb j) hx hw1 hw2
    (show win0_3.index t 0 * 1 + 1 * (j 0).val = t.val / 16 by omega)
    (show win0_3.index t 1 * 128 + 1 * (j 1).val = 128 * (t.val % 16) + (j 1).val by omega)
    (show win0_3.index t 2 * 1024 + 1 * (j 2).val = (j 2).val by omega)

/-- An index of the output array is in point t's block iff each coordinate is in the block's range on its axis. -/
theorem mem_blk (t : Fin cfg0.N) (i : S8x2048x1024.Idx) :
    i ∈ ((cfg0.win 3).blk t).view.set ↔ ∀ a : Fin 3, win0_3.index t a * S1x128x1024.size a ≤ (i a).val ∧ (i a).val < win0_3.index t a * S1x128x1024.size a + S1x128x1024.size a := by
  show i ∈ ((View.whole main_v62).slice (win0_3.rect t)).set ↔ _
  rw [View.set_slice_whole, Rect.mem_set_unit]
  exact Iff.rfl

/-- Every index of the output array is in the block of the point of its expert and its row tile. -/
theorem cover (i : S8x2048x1024.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ : ∃ t : Fin cfg0.N, t.val = 16 * (i 0).val + (i 1).val / 128 :=
    ⟨⟨16 * (i 0).val + (i 1).val / 128, lt_of_lt_of_eq (by omega : 16 * (i 0).val + (i 1).val / 128 < 128) N_0.symm⟩, rfl⟩
  obtain ⟨-, -, -, -, -, -, -, -, -, b0, b1, b2⟩ := idx_facts t
  refine ⟨t, flush0_3 t, ?_⟩
  rw [mem_blk]
  intro a
  match a with
  | ⟨0, _⟩ => show win0_3.index t 0 * 1 ≤ (i 0).val ∧ (i 0).val < win0_3.index t 0 * 1 + 1; omega
  | ⟨1, _⟩ => show win0_3.index t 1 * 128 ≤ (i 1).val ∧ (i 1).val < win0_3.index t 1 * 128 + 128; omega
  | ⟨2, _⟩ => show win0_3.index t 2 * 1024 ≤ (i 2).val ∧ (i 2).val < win0_3.index t 2 * 1024 + 1024; omega

/-- THE OUTPUT ARRAY after the region is the unit of the three arrays the region found. -/
theorem final (c : Dev nD) :
    (dats m 0 c).arrAt 3 cfg0.N = Cert.Mlp.out (V m c (Pipeline.arrRef spec0 (0 : Fin cfg0.W))) (V m c (Pipeline.arrRef spec0 (1 : Fin cfg0.W))) (V m c (Pipeline.arrRef spec0 (2 : Fin cfg0.W))) :=
  (dats m 0 c).arrAt_eq_of_cover 3 (Cert.Mlp.out (V m c (Pipeline.arrRef spec0 (0 : Fin cfg0.W))) (V m c (Pipeline.arrRef spec0 (1 : Fin cfg0.W))) (V m c (Pipeline.arrRef spec0 (2 : Fin cfg0.W))))
    (fun t _ => flushed_eq m c t) cover

end Cert.KernelIdeal.Rows

end
-- ==== Proof.KerHead.lean ====
/-
  What the kernel's region is handed. The three arrays its input windows stage are the gathered per-expert rows and the
  two weight arguments, each rounded to the narrower float format on the way in; on extended reals that rounding is
  the identity, so the region finds exactly the rows and the weights themselves.
-/
import proofs.«173105_j58944131170535_1_alg».proof.Proof.BridgeBase
import proofs.«173105_j58944131170535_1_alg».proof.Proof.Spec

set_option maxRecDepth 16384

noncomputable section

namespace Cert.Bridge

open Idealize.ShloMosaic Idealize.ShloMosaic.StableHlo

attribute [local irreducible] Host.sort2 Host.gather Host.scatter Host.reduceWindow

variable (VK : Valuation Cert.KernelIdeal.τ Cert.KernelIdeal.sig (Elt Ideal))

set_option maxHeartbeats 4000000 in
/-- The rows the region stages are the gathered rows. -/
theorem rows_cast :
    (after headK VK (Proc.devRef .tc Cert.KernelIdeal.main_v59) : Cert.Mlp.SX.Idx → EReal)
      = (after headK VK (Proc.devRef .tc Cert.KernelIdeal.main_v58) : Cert.Mlp.SX.Idx → EReal) := by
  unroll_heads
  rfl

/-- The first weights the region stages are the first weight argument. -/
theorem w1_cast :
    (after headK VK (Proc.devRef .tc Cert.KernelIdeal.main_v60) : Cert.Mlp.SW1.Idx → EReal)
      = (VK (Proc.devRef .tc Cert.KernelIdeal.main_arg2) : Cert.Mlp.SW1.Idx → EReal) := by
  unroll_heads
  rfl

/-- The second weights the region stages are the second weight argument. -/
theorem w2_cast :
    (after headK VK (Proc.devRef .tc Cert.KernelIdeal.main_v61) : Cert.Mlp.SW2.Idx → EReal)
      = (VK (Proc.devRef .tc Cert.KernelIdeal.main_arg3) : Cert.Mlp.SW2.Idx → EReal) := by
  unroll_heads
  rfl

/-- The head leaves the bias alone. -/
theorem bias_kept :
    after headK VK (Proc.devRef .tc Cert.KernelIdeal.main_arg4) = VK (Proc.devRef .tc Cert.KernelIdeal.main_arg4) := by
  unroll_heads

end Cert.Bridge

end
-- ==== Proof.BridgeRoute.lean ====
/-
  The routing values that depend on the expert ids alone (and, for the weights, on the weights alone): in both
  programs each is the same composition of the same operations of the same argument, so the two are equal as soon
  as the arguments are.
-/
import proofs.«173105_j58944131170535_1_alg».proof.Proof.BridgeBase

set_option maxRecDepth 16384

noncomputable section

namespace Cert.Bridge

open Idealize.ShloMosaic Idealize.ShloMosaic.StableHlo

-- the sort, the gathers, the scatters and the windowed sum are compared by their arguments, never opened
attribute [local irreducible] Host.sort2 Host.gather Host.scatter Host.reduceWindow

/-- The stable sort's permutation of the assignments. -/
theorem order_same (VK : Valuation Cert.KernelIdeal.τ Cert.KernelIdeal.sig (Elt Ideal))
    (VR : Valuation Cert.ReferenceIdeal.τ Cert.ReferenceIdeal.sig (Elt Ideal))
    (h5 : VR (Proc.devRef .tc Cert.ReferenceIdeal.main_arg5) = VK (Proc.devRef .tc Cert.KernelIdeal.main_arg5)) :
    after Cert.ReferenceIdeal.Hand.headOps VR (Proc.devRef .tc Cert.ReferenceIdeal.main_v3)
      = after headK VK (Proc.devRef .tc Cert.KernelIdeal.main_v3) := by
  unroll_heads
  rw [h5]
  rfl

/-- The expert id of each sorted assignment. -/
theorem bins_same (VK : Valuation Cert.KernelIdeal.τ Cert.KernelIdeal.sig (Elt Ideal))
    (VR : Valuation Cert.ReferenceIdeal.τ Cert.ReferenceIdeal.sig (Elt Ideal))
    (h5 : VR (Proc.devRef .tc Cert.ReferenceIdeal.main_arg5) = VK (Proc.devRef .tc Cert.KernelIdeal.main_arg5)) :
    after Cert.ReferenceIdeal.Hand.headOps VR (Proc.devRef .tc Cert.ReferenceIdeal.main_v10)
      = after headK VK (Proc.devRef .tc Cert.KernelIdeal.main_v10) := by
  unroll_heads
  rw [h5]
  rfl

/-- The routing weights, flattened. -/
theorem weights_same (VK : Valuation Cert.KernelIdeal.τ Cert.KernelIdeal.sig (Elt Ideal))
    (VR : Valuation Cert.ReferenceIdeal.τ Cert.ReferenceIdeal.sig (Elt Ideal))
    (h1 : VR (Proc.devRef .tc Cert.ReferenceIdeal.main_arg1) = VK (Proc.devRef .tc Cert.KernelIdeal.main_arg1)) :
    after Cert.ReferenceIdeal.Hand.headOps VR (Proc.devRef .tc Cert.ReferenceIdeal.main_v2)
      = after headK VK (Proc.devRef .tc Cert.KernelIdeal.main_v2) := by
  unroll_heads
  rw [h1]
  rfl

/-- The source token of each sorted assignment: the sorted position halved, rounding down. -/
theorem tokens_same (VK : Valuation Cert.KernelIdeal.τ Cert.KernelIdeal.sig (Elt Ideal))
    (VR : Valuation Cert.ReferenceIdeal.τ Cert.ReferenceIdeal.sig (Elt Ideal))
    (h5 : VR (Proc.devRef .tc Cert.ReferenceIdeal.main_arg5) = VK (Proc.devRef .tc Cert.KernelIdeal.main_arg5)) :
    after Cert.ReferenceIdeal.Hand.headOps VR (Proc.devRef .tc Cert.ReferenceIdeal.main_v33)
      = after headK VK (Proc.devRef .tc Cert.KernelIdeal.main_v33) := by
  unroll_heads
  rw [h5]
  rfl

end Cert.Bridge

end
-- ==== Proof.BridgeRank.lean ====
/-
  Each sorted assignment's rank within its expert's bin — its position minus the bin's offset, the offsets being the
  exclusive prefix sums of the histogram of expert ids — and whether that rank is below the capacity: the same
  compositions of the expert ids in both programs.
-/
import proofs.«173105_j58944131170535_1_alg».proof.Proof.BridgeBase

set_option maxRecDepth 16384

noncomputable section

namespace Cert.Bridge

open Idealize.ShloMosaic Idealize.ShloMosaic.StableHlo

-- the sort, the gathers, the scatters and the windowed sum are compared by their arguments, never opened
attribute [local irreducible] Host.sort2 Host.gather Host.scatter Host.reduceWindow

set_option maxHeartbeats 1000000 in
/-- Whether the rank is below the capacity. -/
theorem valid_same (VK : Valuation Cert.KernelIdeal.τ Cert.KernelIdeal.sig (Elt Ideal))
    (VR : Valuation Cert.ReferenceIdeal.τ Cert.ReferenceIdeal.sig (Elt Ideal))
    (h5 : VR (Proc.devRef .tc Cert.ReferenceIdeal.main_arg5) = VK (Proc.devRef .tc Cert.KernelIdeal.main_arg5)) :
    after Cert.ReferenceIdeal.Hand.headOps VR (Proc.devRef .tc Cert.ReferenceIdeal.main_v32)
      = after headK VK (Proc.devRef .tc Cert.KernelIdeal.main_v32) := by
  unroll_heads
  rw [h5]
  rfl

set_option maxHeartbeats 2000000 in
/-- The rank where it is below the capacity, zero elsewhere. -/
theorem slot_same (VK : Valuation Cert.KernelIdeal.τ Cert.KernelIdeal.sig (Elt Ideal))
    (VR : Valuation Cert.ReferenceIdeal.τ Cert.ReferenceIdeal.sig (Elt Ideal))
    (h5 : VR (Proc.devRef .tc Cert.ReferenceIdeal.main_arg5) = VK (Proc.devRef .tc Cert.KernelIdeal.main_arg5)) :
    after Cert.ReferenceIdeal.Hand.headOps VR (Proc.devRef .tc Cert.ReferenceIdeal.main_v35)
      = after headK VK (Proc.devRef .tc Cert.KernelIdeal.main_v35) := by
  unroll_heads
  rw [h5]
  rfl

end Cert.Bridge

end
-- ==== Proof.BridgeRows.lean ====
/-
  The per-expert rows: a zero array with one spare expert, into which each sorted assignment's token row is written
  at (its expert, its rank) when the rank is below the capacity and at (the spare expert, 0) otherwise; the spare
  expert is then sliced away. The same composition of the tokens and the expert ids in both programs.
-/
import proofs.«173105_j58944131170535_1_alg».proof.Proof.BridgeBase

set_option maxRecDepth 16384

noncomputable section

namespace Cert.Bridge

open Idealize.ShloMosaic Idealize.ShloMosaic.StableHlo

-- the sort, the gathers, the scatters and the windowed sum are compared by their arguments, never opened
attribute [local irreducible] Host.sort2 Host.gather Host.scatter Host.reduceWindow

set_option maxHeartbeats 8000000 in
/-- The gathered per-expert rows. -/
theorem rows_same (VK : Valuation Cert.KernelIdeal.τ Cert.KernelIdeal.sig (Elt Ideal))
    (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h5 : VR (Proc.devRef .tc Cert.ReferenceIdeal.main_arg5) = VK (Proc.devRef .tc Cert.KernelIdeal.main_arg5)) :
    after Cert.ReferenceIdeal.Hand.headOps VR (Proc.devRef .tc Cert.ReferenceIdeal.main_v58)
      = after headK VK (Proc.devRef .tc Cert.KernelIdeal.main_v58) := by
  unroll_heads
  rw [catR_eq, catK_eq]
  unroll_folds
  rw [h0, h5]
  rfl

end Cert.Bridge

end
-- ==== Proof.BridgeTail.lean ====
/-
  After the grouped products both programs gather each sorted assignment's output row at (its expert, its slot),
  scale it by its routing weight where the rank was below the capacity and by zero elsewhere, add the scaled rows
  into their source tokens, restore the batch shape and add the bias. The same forty-seven operations of the same
  eight inputs: if the product arrays agree and the seven routing inputs agree, so do the results.
-/
import proofs.«173105_j58944131170535_1_alg».proof.Proof.BridgeBase

set_option maxRecDepth 16384

noncomputable section

namespace Cert.Bridge

open Idealize.ShloMosaic Idealize.ShloMosaic.StableHlo

-- the sort, the gathers, the scatters and the windowed sum are compared by their arguments, never opened
attribute [local irreducible] Host.gather Host.scatterAdd

set_option maxHeartbeats 4000000 in
/-- The reference's result from contents WR is the kernel program's from contents WK, when the eight inputs of the
    tail agree. -/
theorem tail_same (WK : Valuation Cert.KernelIdeal.τ Cert.KernelIdeal.sig (Elt Ideal))
    (WR : Valuation Cert.ReferenceIdeal.τ Cert.ReferenceIdeal.sig (Elt Ideal))
    (hout : WR (Proc.devRef .tc Cert.ReferenceIdeal.main_v73) = WK (Proc.devRef .tc Cert.KernelIdeal.main_v62))
    (h10 : WR (Proc.devRef .tc Cert.ReferenceIdeal.main_v10) = WK (Proc.devRef .tc Cert.KernelIdeal.main_v10))
    (h35 : WR (Proc.devRef .tc Cert.ReferenceIdeal.main_v35) = WK (Proc.devRef .tc Cert.KernelIdeal.main_v35))
    (h3 : WR (Proc.devRef .tc Cert.ReferenceIdeal.main_v3) = WK (Proc.devRef .tc Cert.KernelIdeal.main_v3))
    (h2 : WR (Proc.devRef .tc Cert.ReferenceIdeal.main_v2) = WK (Proc.devRef .tc Cert.KernelIdeal.main_v2))
    (h32 : WR (Proc.devRef .tc Cert.ReferenceIdeal.main_v32) = WK (Proc.devRef .tc Cert.KernelIdeal.main_v32))
    (h33 : WR (Proc.devRef .tc Cert.ReferenceIdeal.main_v33) = WK (Proc.devRef .tc Cert.KernelIdeal.main_v33))
    (h4 : WR (Proc.devRef .tc Cert.ReferenceIdeal.main_arg4) = WK (Proc.devRef .tc Cert.KernelIdeal.main_arg4)) :
    after Cert.ReferenceIdeal.Hand.tailOps WR (Proc.devRef .tc Cert.ReferenceIdeal.main_v111)
      = after Cert.KernelIdeal.Gen.hostOps1 WK (Proc.devRef .tc Cert.KernelIdeal.main_v100) := by
  unroll_folds
  rw [catR_eq, catK_eq]
  unroll_folds
  rw [hout, h10, h35, h3, h2, h32, h33, h4]
  rfl

end Cert.Bridge

end
-- ==== Proof.Final.lean ====
/-
  The two programs end with the same result. The kernel program's result is its forty-seven closing operations folded
  over what its region leaves: the output array at the two-layer unit of the gathered rows and the weight arguments
  (the blocks tile it), every other buffer as the operations before the region left it. The reference's result is the
  same forty-seven operations folded over the same unit, computed by two whole products, and the same routing values.
  The routing values and the gathered rows are the same functions of the arguments in both programs, the arguments
  agree, and the closing operations are a function of those eight inputs: so the results agree, element by element.
-/
import proofs.«173105_j58944131170535_1_alg».proof.Proof.KerValue
import proofs.«173105_j58944131170535_1_alg».proof.Proof.KerHead
import proofs.«173105_j58944131170535_1_alg».proof.Proof.RefSide
import proofs.«173105_j58944131170535_1_alg».proof.Proof.BridgeRoute
import proofs.«173105_j58944131170535_1_alg».proof.Proof.BridgeRank
import proofs.«173105_j58944131170535_1_alg».proof.Proof.BridgeRows
import proofs.«173105_j58944131170535_1_alg».proof.Proof.BridgeTail
import proofs.«173105_j58944131170535_1_alg».proof.Defs

set_option maxRecDepth 16384

noncomputable section

namespace Cert.Final

open Idealize.ShloMosaic Idealize.ShloMosaic.TcCoe Idealize.ShloMosaic.StableHlo Idealize.SL.Sem
open Cert.Bridge

variable (m : (ℓ : Loc Cert.KernelIdeal.nD Cert.KernelIdeal.τ Cert.KernelIdeal.sig) → Buf (Elt Ideal) ℓ)

/-- A core's launch contents of the kernel program, as a valuation. -/
abbrev MK (c : Dev Cert.KernelIdeal.nD) : Valuation Cert.KernelIdeal.τ Cert.KernelIdeal.sig (Elt Ideal) := fun b => m (c, b)

/-- What the closing operations start from: the pipeline's arrays as the region leaves them, the rest as the head left it. -/
abbrev WK (c : Dev Cert.KernelIdeal.nD) : Valuation Cert.KernelIdeal.τ Cert.KernelIdeal.sig (Elt Ideal) :=
  Pipeline.withArrays Cert.KernelIdeal.spec0 c (Cert.KernelIdeal.Gen.V0 m c)
    fun w => (Cert.KernelIdeal.Gen.dats m 0 c).arrAt w Cert.KernelIdeal.cfg0.N

/-- The kernel program's result is the closing operations' fold over those contents. -/
theorem kernel_result (c : Dev Cert.KernelIdeal.nD) :
    Pipeline.afterTail₀ Cert.KernelIdeal.cfgs (Cert.KernelIdeal.Gen.dats m) 0 (Cert.KernelIdeal.Gen.V0 m) [Cert.KernelIdeal.Gen.hostOps1] c Cert.KernelIdeal.main_v100
      = after Cert.KernelIdeal.Gen.hostOps1 (WK m c) (Proc.devRef .tc Cert.KernelIdeal.main_v100) := by
  unfold Pipeline.afterTail₀
  simp only [List.flatten_cons, List.flatten_nil, List.append_nil]

/-- A buffer that is no array of the pipeline is as the head left it. -/
theorem wk_rest (c : Dev Cert.KernelIdeal.nD) (b : Ref Cert.KernelIdeal.sig .tc) (hb : ∀ w, Pipeline.arrRef Cert.KernelIdeal.spec0 w ≠ b) :
    WK m c (Proc.devRef .tc b) = after headK (MK m c) (Proc.devRef .tc b) :=
  Pipeline.withArrays_of_ne Cert.KernelIdeal.spec0 c (Cert.KernelIdeal.Gen.V0 m c) _ b hb

/-- The arrays the three input windows stage are the three buffers written last before the region. -/
theorem arr0 : Pipeline.arrRef Cert.KernelIdeal.spec0 (0 : Fin Cert.KernelIdeal.cfg0.W) = Cert.KernelIdeal.main_v59 := rfl
theorem arr1 : Pipeline.arrRef Cert.KernelIdeal.spec0 (1 : Fin Cert.KernelIdeal.cfg0.W) = Cert.KernelIdeal.main_v60 := rfl
theorem arr2 : Pipeline.arrRef Cert.KernelIdeal.spec0 (2 : Fin Cert.KernelIdeal.cfg0.W) = Cert.KernelIdeal.main_v61 := rfl

/-- The output array is the unit of the gathered rows and the two weight arguments. -/
theorem wk_out (c : Dev Cert.KernelIdeal.nD) :
    (WK m c (Proc.devRef .tc Cert.KernelIdeal.main_v62) : Cert.Mlp.SX.Idx → EReal)
      = Cert.Mlp.out (after headK (MK m c) (Proc.devRef .tc Cert.KernelIdeal.main_v58))
          (MK m c (Proc.devRef .tc Cert.KernelIdeal.main_arg2)) (MK m c (Proc.devRef .tc Cert.KernelIdeal.main_arg3)) := by
  refine (Pipeline.withArrays_arr Cert.KernelIdeal.spec0 Cert.KernelIdeal.Gen.winFacts0.arr_inj c (Cert.KernelIdeal.Gen.V0 m c) _ 3).trans ?_
  refine (Cert.KernelIdeal.Rows.final m c).trans ?_
  dsimp only [arr0, arr1, arr2]
  exact congr (congr (congrArg Cert.Mlp.out (rows_cast (MK m c))) (w1_cast (MK m c))) (w2_cast (MK m c))

variable (m' : (ℓ : Loc Cert.ReferenceIdeal.nD Cert.ReferenceIdeal.τ Cert.ReferenceIdeal.sig) → Buf (Elt Ideal) ℓ)

/-- From agreeing arguments the reference's result is the kernel program's. -/
theorem results_agree (c : Dev Cert.KernelIdeal.nD)
    (h0 : launchContents m' c (Proc.devRef .tc Cert.ReferenceIdeal.main_arg0) = MK m c (Proc.devRef .tc Cert.KernelIdeal.main_arg0))
    (h1 : launchContents m' c (Proc.devRef .tc Cert.ReferenceIdeal.main_arg1) = MK m c (Proc.devRef .tc Cert.KernelIdeal.main_arg1))
    (h2 : launchContents m' c (Proc.devRef .tc Cert.ReferenceIdeal.main_arg2) = MK m c (Proc.devRef .tc Cert.KernelIdeal.main_arg2))
    (h3 : launchContents m' c (Proc.devRef .tc Cert.ReferenceIdeal.main_arg3) = MK m c (Proc.devRef .tc Cert.KernelIdeal.main_arg3))
    (h4 : launchContents m' c (Proc.devRef .tc Cert.ReferenceIdeal.main_arg4) = MK m c (Proc.devRef .tc Cert.KernelIdeal.main_arg4))
    (h5 : launchContents m' c (Proc.devRef .tc Cert.ReferenceIdeal.main_arg5) = MK m c (Proc.devRef .tc Cert.KernelIdeal.main_arg5)) :
    after Cert.ReferenceIdeal.Hand.allOps (launchContents m' c) (Proc.devRef .tc Cert.ReferenceIdeal.main_v111)
      = Pipeline.afterTail₀ Cert.KernelIdeal.cfgs (Cert.KernelIdeal.Gen.dats m) 0 (Cert.KernelIdeal.Gen.V0 m) [Cert.KernelIdeal.Gen.hostOps1] c Cert.KernelIdeal.main_v100 := by
  rw [kernel_result, Cert.ReferenceIdeal.Side.all_split]
  refine tail_same (WK m c) _ ?_ ?_ ?_ ?_ ?_ ?_ ?_ ?_
  · -- the products
    refine ((Cert.ReferenceIdeal.Side.mid_out _).trans ?_).trans (wk_out m c).symm
    rw [Cert.ReferenceIdeal.Side.head_arg2, Cert.ReferenceIdeal.Side.head_arg3, rows_same (MK m c) (launchContents m' c) h0 h5, h2, h3]
  · exact ((Cert.ReferenceIdeal.Side.mid_v10 _).trans (bins_same (MK m c) (launchContents m' c) h5)).trans (wk_rest m c Cert.KernelIdeal.main_v10 (by decide)).symm
  · exact ((Cert.ReferenceIdeal.Side.mid_v35 _).trans (slot_same (MK m c) (launchContents m' c) h5)).trans (wk_rest m c Cert.KernelIdeal.main_v35 (by decide)).symm
  · exact ((Cert.ReferenceIdeal.Side.mid_v3 _).trans (order_same (MK m c) (launchContents m' c) h5)).trans (wk_rest m c Cert.KernelIdeal.main_v3 (by decide)).symm
  · exact ((Cert.ReferenceIdeal.Side.mid_v2 _).trans (weights_same (MK m c) (launchContents m' c) h1)).trans (wk_rest m c Cert.KernelIdeal.main_v2 (by decide)).symm
  · exact ((Cert.ReferenceIdeal.Side.mid_v32 _).trans (valid_same (MK m c) (launchContents m' c) h5)).trans (wk_rest m c Cert.KernelIdeal.main_v32 (by decide)).symm
  · exact ((Cert.ReferenceIdeal.Side.mid_v33 _).trans (tokens_same (MK m c) (launchContents m' c) h5)).trans (wk_rest m c Cert.KernelIdeal.main_v33 (by decide)).symm
  · exact (((Cert.ReferenceIdeal.Side.mid_arg4 _).trans (Cert.ReferenceIdeal.Side.head_arg4 _)).trans h4).trans
      ((wk_rest m c Cert.KernelIdeal.main_arg4 (by decide)).trans (bias_kept (MK m c))).symm

/-- The idealized kernel program and the idealized reference, from memories agreeing on the arguments, both run and end
    with equal results and unchanged arguments. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v100, ?_, ?_⟩
  · refine (θ_run Cert.KernelIdeal.defs _ _).mono (fun _ h c => ?_) (Cert.KernelIdeal.Gen.run_main m ρ)
    exact ⟨(h c).2 Cert.KernelIdeal.main_v100 (Pipeline.mem_restRefs_of Cert.KernelIdeal.main_v100 (by decide) (by decide)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c)⟩
  · refine (θ_run Cert.ReferenceIdeal.defs _ _).mono (fun _ h c => ?_) (Cert.ReferenceIdeal.Hand.run_all (F := Ideal) m' ρ')
    obtain ⟨a0, a1, a2, a3, a4, a5⟩ := hagree c
    exact ⟨(h c Cert.ReferenceIdeal.main_v111).trans (results_agree m m' c a0 a1 a2 a3 a4 a5),
      (h c Cert.ReferenceIdeal.main_arg0).trans (Cert.ReferenceIdeal.Side.kept_arg0 _), (h c Cert.ReferenceIdeal.main_arg1).trans (Cert.ReferenceIdeal.Side.kept_arg1 _),
      (h c Cert.ReferenceIdeal.main_arg2).trans (Cert.ReferenceIdeal.Side.kept_arg2 _), (h c Cert.ReferenceIdeal.main_arg3).trans (Cert.ReferenceIdeal.Side.kept_arg3 _),
      (h c Cert.ReferenceIdeal.main_arg4).trans (Cert.ReferenceIdeal.Side.kept_arg4 _), (h c Cert.ReferenceIdeal.main_arg5).trans (Cert.ReferenceIdeal.Side.kept_arg5 _)⟩

end Cert.Final

end
-- ==== Proof.lean ====
/-
  The claim. A grouped two-layer unit with a tanh gate, applied expert by expert to rows gathered by a capacity-limited
  top-2 routing and scattered back with the routing weights, computed by a tiled kernel between two stretches of host
  operations, against the same computation with two whole products on the host.
  The three programs run and keep their arguments: the two kernel programs by their generated frames, the reference
  because it is a straight line of host operations, none of which writes an argument. Nothing was rewritten on the way
  from the kernel program to its idealization. And at the ideal instance the two results are equal: the routing, the
  gather and the closing scatter are the same operations of the same values in both programs; between them the tiles'
  products into zero accumulators are the whole products restricted to the tiles; the narrowing conversions are the
  identity; and the cube in the gate is grouped (h · h) · h on one side and h · (h · h) on the other, one number since
  the product of extended reals is associative. No step needs the inputs to be finite.
-/
import proofs.«173105_j58944131170535_1_alg».proof.Defs
import proofs.«173105_j58944131170535_1_alg».proof.Proof.Gen.Kernel
import proofs.«173105_j58944131170535_1_alg».proof.Proof.Gen.Kernel.Frame
import proofs.«173105_j58944131170535_1_alg».proof.Proof.Gen.KernelIdeal
import proofs.«173105_j58944131170535_1_alg».proof.Proof.Gen.KernelIdeal.Frame
import proofs.«173105_j58944131170535_1_alg».proof.Proof.Gen.ReferenceIdeal
import proofs.«173105_j58944131170535_1_alg».proof.Proof.Gen.Pre_finite_inputs
import proofs.«173105_j58944131170535_1_alg».proof.Proof.RefSide
import proofs.«173105_j58944131170535_1_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.Side.frame, trivial, Cert.Final.algebraic⟩

end Cert.Proof

end
